-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x160 : Shape := ⟨3, ![32, 2048, 160]⟩
abbrev S160x160 : Shape := ⟨2, ![160, 160]⟩
abbrev S160 : Shape := ⟨1, ![160]⟩
abbrev S_ : Shape := ⟨0, ![]⟩

class Facts : Prop where
  bcast_S_S32x2048x160 : S_.BroadcastsInDim S32x2048x160 (![] : Fin 0 → Fin S32x2048x160.rank)
  reducesTo_S32x2048x160_S_d0_1_2 : S32x2048x160.ReducesTo [0, 1, 2] S_
  h_S_ : 0 < S_.numel
  bcast_S_S160x160 : S_.BroadcastsInDim S160x160 (![] : Fin 0 → Fin S160x160.rank)
  reducesTo_S160x160_S_d0_1 : S160x160.ReducesTo [0, 1] S_
  bcast_S_S160 : S_.BroadcastsInDim S160 (![] : Fin 0 → Fin S160.rank)
  reducesTo_S160_S_d0 : S160.ReducesTo [0] S_

variable [Facts]

def fn_part2 {F : FTy → Type} [FloatOps F] (main_arg7 : FVec F S160 .f32) (main_v33 : IVec S_ 1) : IVec S_ 1 :=
  let main_v34 : FVec F S160 .f32 := Host.absf main_arg7
  let main_cst_12 : FVec F S_ .f32 := constant S_ .f32 0x7F800000#32
  let main_v35 : FVec F S160 .f32 := broadcastInDim S160 ![] bcast_S_S160 main_cst_12
  let main_v36 : IVec S160 1 := cmpf .olt main_v34 main_v35
  let main_c_13 : IVec S_ 1 := constantI S_ 1 1#1
  let main_v37 : IVec S_ 1 := (fun x v => Host.reduce IntOp.andi x v reducesTo_S160_S_d0 h_S_) main_v36 main_c_13
  let main_v38 : IVec S_ 1 := andi main_v33 main_v37
  main_v38

def fn_part1 {F : FTy → Type} [FloatOps F] (main_arg4 : FVec F S160x160 .f32) (main_arg5 : FVec F S160 .f32) (main_arg6 : FVec F S160x160 .f32) (main_arg7 : FVec F S160 .f32) (main_v13 : IVec S_ 1) (main_v16 : IVec S160 1) : IVec S_ 1 :=
  let main_c_5 : IVec S_ 1 := constantI S_ 1 1#1
  let main_v17 : IVec S_ 1 := (fun x v => Host.reduce IntOp.andi x v reducesTo_S160_S_d0 h_S_) main_v16 main_c_5
  let main_v18 : IVec S_ 1 := andi main_v13 main_v17
  let main_v19 : FVec F S160x160 .f32 := Host.absf main_arg4
  let main_cst_6 : FVec F S_ .f32 := constant S_ .f32 0x7F800000#32
  let main_v20 : FVec F S160x160 .f32 := broadcastInDim S160x160 ![] bcast_S_S160x160 main_cst_6
  let main_v21 : IVec S160x160 1 := cmpf .olt main_v19 main_v20
  let main_c_7 : IVec S_ 1 := constantI S_ 1 1#1
  let main_v22 : IVec S_ 1 := (fun x v => Host.reduce IntOp.andi x v reducesTo_S160x160_S_d0_1 h_S_) main_v21 main_c_7
  let main_v23 : IVec S_ 1 := andi main_v18 main_v22
  let main_v24 : FVec F S160 .f32 := Host.absf main_arg5
  let main_cst_8 : FVec F S_ .f32 := constant S_ .f32 0x7F800000#32
  let main_v25 : FVec F S160 .f32 := broadcastInDim S160 ![] bcast_S_S160 main_cst_8
  let main_v26 : IVec S160 1 := cmpf .olt main_v24 main_v25
  let main_c_9 : IVec S_ 1 := constantI S_ 1 1#1
  let main_v27 : IVec S_ 1 := (fun x v => Host.reduce IntOp.andi x v reducesTo_S160_S_d0 h_S_) main_v26 main_c_9
  let main_v28 : IVec S_ 1 := andi main_v23 main_v27
  let main_v29 : FVec F S160x160 .f32 := Host.absf main_arg6
  let main_cst_10 : FVec F S_ .f32 := constant S_ .f32 0x7F800000#32
  let main_v30 : FVec F S160x160 .f32 := broadcastInDim S160x160 ![] bcast_S_S160x160 main_cst_10
  let main_v31 : IVec S160x160 1 := cmpf .olt main_v29 main_v30
  let main_c_11 : IVec S_ 1 := constantI S_ 1 1#1
  let main_v32 : IVec S_ 1 := (fun x v => Host.reduce IntOp.andi x v reducesTo_S160x160_S_d0_1 h_S_) main_v31 main_c_11
  let main_v33 : IVec S_ 1 := andi main_v28 main_v32
  fn_part2 (F := F) main_arg7 main_v33

def fn {F : FTy → Type} [FloatOps F] (main_arg0 : FVec F S32x2048x160 .f32) (main_arg1 : FVec F S32x2048x160 .f32) (main_arg2 : FVec F S160x160 .f32) (main_arg3 : FVec F S160 .f32) (main_arg4 : FVec F S160x160 .f32) (main_arg5 : FVec F S160 .f32) (main_arg6 : FVec F S160x160 .f32) (main_arg7 : FVec F S160 .f32) : IVec S_ 1 :=
  let main_v0 : FVec F S32x2048x160 .f32 := Host.absf main_arg0
  let main_cst : FVec F S_ .f32 := constant S_ .f32 0x7F800000#32
  let main_v1 : FVec F S32x2048x160 .f32 := broadcastInDim S32x2048x160 ![] bcast_S_S32x2048x160 main_cst
  let main_v2 : IVec S32x2048x160 1 := cmpf .olt main_v0 main_v1
  let main_c : IVec S_ 1 := constantI S_ 1 1#1
  let main_v3 : IVec S_ 1 := (fun x v => Host.reduce IntOp.andi x v reducesTo_S32x2048x160_S_d0_1_2 h_S_) main_v2 main_c
  let main_v4 : FVec F S32x2048x160 .f32 := Host.absf main_arg1
  let main_cst_0 : FVec F S_ .f32 := constant S_ .f32 0x7F800000#32
  let main_v5 : FVec F S32x2048x160 .f32 := broadcastInDim S32x2048x160 ![] bcast_S_S32x2048x160 main_cst_0
  let main_v6 : IVec S32x2048x160 1 := cmpf .olt main_v4 main_v5
  let main_c_1 : IVec S_ 1 := constantI S_ 1 1#1
  let main_v7 : IVec S_ 1 := (fun x v => Host.reduce IntOp.andi x v reducesTo_S32x2048x160_S_d0_1_2 h_S_) main_v6 main_c_1
  let main_v8 : IVec S_ 1 := andi main_v3 main_v7
  let main_v9 : FVec F S160x160 .f32 := Host.absf main_arg2
  let main_cst_2 : FVec F S_ .f32 := constant S_ .f32 0x7F800000#32
  let main_v10 : FVec F S160x160 .f32 := broadcastInDim S160x160 ![] bcast_S_S160x160 main_cst_2
  let main_v11 : IVec S160x160 1 := cmpf .olt main_v9 main_v10
  let main_c_3 : IVec S_ 1 := constantI S_ 1 1#1
  let main_v12 : IVec S_ 1 := (fun x v => Host.reduce IntOp.andi x v reducesTo_S160x160_S_d0_1 h_S_) main_v11 main_c_3
  let main_v13 : IVec S_ 1 := andi main_v8 main_v12
  let main_v14 : FVec F S160 .f32 := Host.absf main_arg3
  let main_cst_4 : FVec F S_ .f32 := constant S_ .f32 0x7F800000#32
  let main_v15 : FVec F S160 .f32 := broadcastInDim S160 ![] bcast_S_S160 main_cst_4
  let main_v16 : IVec S160 1 := cmpf .olt main_v14 main_v15
  fn_part1 (F := F) main_arg4 main_arg5 main_arg6 main_arg7 main_v13 main_v16
-- ==== Kernel.lean ====
abbrev S32x2048x160 : Shape := ⟨3, ![32, 2048, 160]⟩
abbrev S160x160 : Shape := ⟨2, ![160, 160]⟩
abbrev S160 : Shape := ⟨1, ![160]⟩
abbrev S1x1024x160 : Shape := ⟨3, ![1, 1024, 160]⟩
abbrev S1024x160 : Shape := ⟨2, ![1024, 160]⟩
abbrev S1024x1 : Shape := ⟨2, ![1024, 1]⟩
abbrev S1x160 : Shape := ⟨2, ![1, 160]⟩
abbrev S160x1024 : Shape := ⟨2, ![160, 1024]⟩
abbrev S1024x1024 : Shape := ⟨2, ![1024, 1024]⟩
abbrev S1024 : Shape := ⟨1, ![1024]⟩

abbrev nBuf : Space → Nat
  | .hbm => 12
  | .vmem => 16
  | .smem => 0
  | _ => 0

abbrev bufTy : (tb : Table) → Fin (tcTables nBuf tb) → BufTy
  | .hbm, ⟨0, _⟩ => ⟨S32x2048x160, .f32⟩
  | .hbm, ⟨1, _⟩ => ⟨S32x2048x160, .f32⟩
  | .hbm, ⟨2, _⟩ => ⟨S160x160, .f32⟩
  | .hbm, ⟨3, _⟩ => ⟨S160, .f32⟩
  | .hbm, ⟨4, _⟩ => ⟨S160x160, .f32⟩
  | .hbm, ⟨5, _⟩ => ⟨S160, .f32⟩
  | .hbm, ⟨6, _⟩ => ⟨S160x160, .f32⟩
  | .hbm, ⟨7, _⟩ => ⟨S160, .f32⟩
  | .hbm, ⟨8, _⟩ => ⟨S160x160, .f32⟩
  | .hbm, ⟨9, _⟩ => ⟨S160x160, .f32⟩
  | .hbm, ⟨10, _⟩ => ⟨S160x160, .f32⟩
  | .hbm, ⟨11, _⟩ => ⟨S32x2048x160, .f32⟩
  | .local _ .vmem, ⟨0, _⟩ => ⟨S1x1024x160, .f32⟩
  | .local _ .vmem, ⟨1, _⟩ => ⟨S1x1024x160, .f32⟩
  | .local _ .vmem, ⟨2, _⟩ => ⟨S1x1024x160, .f32⟩
  | .local _ .vmem, ⟨3, _⟩ => ⟨S1x1024x160, .f32⟩
  | .local _ .vmem, ⟨4, _⟩ => ⟨S160x160, .f32⟩
  | .local _ .vmem, ⟨5, _⟩ => ⟨S160, .f32⟩
  | .local _ .vmem, ⟨6, _⟩ => ⟨S160x160, .f32⟩
  | .local _ .vmem, ⟨7, _⟩ => ⟨S160, .f32⟩
  | .local _ .vmem, ⟨8, _⟩ => ⟨S160x160, .f32⟩
  | .local _ .vmem, ⟨9, _⟩ => ⟨S160, .f32⟩
  | .local _ .vmem, ⟨10, _⟩ => ⟨S1x1024x160, .f32⟩
  | .local _ .vmem, ⟨11, _⟩ => ⟨S1x1024x160, .f32⟩
  | .local _ .vmem, ⟨12, _⟩ => ⟨S1024x160, .f32⟩
  | .local _ .vmem, ⟨13, _⟩ => ⟨S1024x1, .f32⟩
  | .local _ .vmem, ⟨14, _⟩ => ⟨S1024x1, .f32⟩
  | .local _ .vmem, ⟨15, _⟩ => ⟨S1024x160, .f32⟩
  | _, _ => ⟨S32x2048x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨3, ![32, 2, 2], ![false, false, false]⟩

def k0_cond2 (i : grid0.Coords) : BitVec 1 :=
  let arg2 : BitVec 32 := BitVec.ofNat 32 (i 2).val
  let c1_i32 : BitVec 32 := 1#32
  let v57 : BitVec 1 := Scalar.cmpi .eq arg2 c1_i32
  let v58 : BitVec 32 := Scalar.extui v57
  let c0_i32_28 : BitVec 32 := 0#32
  let v59 : BitVec 1 := Scalar.cmpi .ne v58 c0_i32_28
  v59

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S160x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S160x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S160x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x160 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

class Facts₀ : Prop where
  transposes_S160x160_S160x160_1_0 : S160x160.Transposes [1, 0] S160x160
  inb_S1x1024x160_S1x1024x160_0_0_0 : ∀ a, (![0, 0, 0] : Fin 3 → Nat) a + S1x1024x160.size a ≤ S1x1024x160.size a
  h_S1x1024x160 : 0 < S1x1024x160.numel
  shapeCasts_S1x1024x160_S1024x160 : S1x1024x160.ShapeCasts S1024x160
  bitsLt_bf16_f32 : FTy.bits .bf16 < FTy.bits .f32
  inb_S160x160_S160x160_0_0 : ∀ a, (![0, 0] : Fin 2 → Nat) a + S160x160.size a ≤ S160x160.size a
  h_S160x160 : 0 < S160x160.numel
  shapeCasts_S160x160_S160x160 : S160x160.ShapeCasts S160x160
  inb_S160_S160_0 : ∀ a, (![0] : Fin 1 → Nat) a + S160.size a ≤ S160.size a
  h_S160 : 0 < S160.numel
  shapeCasts_S160_S1x160 : S160.ShapeCasts S1x160
  broadcasts_S1x160_S1024x160 : S1x160.Broadcasts S1024x160
  inb_S1024x160_S1024x160_0_0 : ∀ a, (![0, 0] : Fin 2 → Nat) a + S1024x160.size a ≤ S1024x160.size a
  h_S1024x160 : 0 < S1024x160.numel
  shapeCasts_S1024x160_S1024x160 : S1024x160.ShapeCasts S1024x160
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S1024x160_p1_0_S160x1024 : S1024x160.Transposes [1, 0] S160x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x160 : S1024x1.Broadcasts S1024x160
  shapeCasts_S1024x160_S1x1024x160 : S1024x160.ShapeCasts S1x1024x160
  dot_S1024x160_S160x160_S1024x160_1_0_0_1_n_n_wf : DotDims.WF S1024x160 S160x160 S1024x160 [1] [0] [0] [1] [] []
  dot_S1024x160_S160x1024_S1024x1024_1_0_0_1_n_n_wf : DotDims.WF S1024x160 S160x1024 S1024x1024 [1] [0] [0] [1] [] []
  dot_S1024x1024_S1024x160_S1024x160_1_0_0_1_n_n_wf : DotDims.WF S1024x1024 S1024x160 S1024x160 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x160.size a ≤ S32x2048x160.size a
  hwx0_0 : ∀ i : grid0.Coords, EltTy.bits .f32 = 32 ∨ (Rect.block (s := S32x2048x160) S1x1024x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x160.size a ≤ S32x2048x160.size a
  hwx0_1 : ∀ i : grid0.Coords, EltTy.bits .f32 = 32 ∨ (Rect.block (s := S32x2048x160) S1x1024x160.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S160x160.size a ≤ S160x160.size a
  hwx0_2 : ∀ i : grid0.Coords, EltTy.bits .f32 = 32 ∨ (Rect.block (s := S160x160) S160x160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160.size a ≤ S160.size a
  hwx0_3 : ∀ i : grid0.Coords, EltTy.bits .f32 = 32 ∨ (Rect.block (s := S160) S160.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S160x160.size a ≤ S160x160.size a
  hwx0_4 : ∀ i : grid0.Coords, EltTy.bits .f32 = 32 ∨ (Rect.block (s := S160x160) S160x160.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S160.size a ≤ S160.size a
  hwx0_5 : ∀ i : grid0.Coords, EltTy.bits .f32 = 32 ∨ (Rect.block (s := S160) S160.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S160x160.size a ≤ S160x160.size a
  hwx0_6 : ∀ i : grid0.Coords, EltTy.bits .f32 = 32 ∨ (Rect.block (s := S160x160) S160x160.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S160.size a ≤ S160.size a
  hwx0_7 : ∀ i : grid0.Coords, EltTy.bits .f32 = 32 ∨ (Rect.block (s := S160) S160.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x160.size a ≤ S32x2048x160.size a
  hwx0_8 : ∀ i : grid0.Coords, EltTy.bits .f32 = 32 ∨ (Rect.block (s := S32x2048x160) S1x1024x160.size (cc0_transform_8 i) (hinb0_8 i)).WholeWords (EltTy.packing .f32)

variable [Facts₀]

def dot_S1024x160_S160x160_S1024x160_1_0_0_1_n_n : DotDims S1024x160 S160x160 S1024x160 where
  lhsContracting := [1]
  rhsContracting := [0]
  lhsNonContracting := [0]
  rhsNonContracting := [1]
  lhsBatch := []
  rhsBatch := []
  wf := dot_S1024x160_S160x160_S1024x160_1_0_0_1_n_n_wf
def dot_S1024x160_S160x1024_S1024x1024_1_0_0_1_n_n : DotDims S1024x160 S160x1024 S1024x1024 where
  lhsContracting := [1]
  rhsContracting := [0]
  lhsNonContracting := [0]
  rhsNonContracting := [1]
  lhsBatch := []
  rhsBatch := []
  wf := dot_S1024x160_S160x1024_S1024x1024_1_0_0_1_n_n_wf
def dot_S1024x1024_S1024x160_S1024x160_1_0_0_1_n_n : DotDims S1024x1024 S1024x160 S1024x160 where
  lhsContracting := [1]
  rhsContracting := [0]
  lhsNonContracting := [0]
  rhsNonContracting := [1]
  lhsBatch := []
  rhsBatch := []
  wf := dot_S1024x1024_S1024x160_S1024x160_1_0_0_1_n_n_wf

abbrev win0_0 : Pipeline.Window sig grid0 :=
  Pipeline.Window.ofSpec (Memref.whole main_arg0) S1x1024x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x160.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S160x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S160x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S160.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S160x160.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S160.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1024x160.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S32x2048x160 : Shape := ⟨3, ![32, 2048, 160]⟩
abbrev S160x160 : Shape := ⟨2, ![160, 160]⟩
abbrev S160 : Shape := ⟨1, ![160]⟩
abbrev S1x1x160 : Shape := ⟨3, ![1, 1, 160]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S32x2048x160, .f32⟩
  | .hbm, ⟨1, _⟩ => ⟨S32x2048x160, .f32⟩
  | .hbm, ⟨2, _⟩ => ⟨S160x160, .f32⟩
  | .hbm, ⟨3, _⟩ => ⟨S160, .f32⟩
  | .hbm, ⟨4, _⟩ => ⟨S160x160, .f32⟩
  | .hbm, ⟨5, _⟩ => ⟨S160, .f32⟩
  | .hbm, ⟨6, _⟩ => ⟨S160x160, .f32⟩
  | .hbm, ⟨7, _⟩ => ⟨S160, .f32⟩
  | .hbm, ⟨8, _⟩ => ⟨S32x2048x160, .f32⟩
  | .hbm, ⟨9, _⟩ => ⟨S1x1x160, .f32⟩
  | .hbm, ⟨10, _⟩ => ⟨S32x2048x160, .f32⟩
  | .hbm, ⟨11, _⟩ => ⟨S32x2048x160, .f32⟩
  | .hbm, ⟨12, _⟩ => ⟨S32x2048x160, .f32⟩
  | .hbm, ⟨13, _⟩ => ⟨S1x1x160, .f32⟩
  | .hbm, ⟨14, _⟩ => ⟨S32x2048x160, .f32⟩
  | .hbm, ⟨15, _⟩ => ⟨S32x2048x160, .f32⟩
  | .hbm, ⟨16, _⟩ => ⟨S32x2048x160, .f32⟩
  | .hbm, ⟨17, _⟩ => ⟨S1x1x160, .f32⟩
  | .hbm, ⟨18, _⟩ => ⟨S32x2048x160, .f32⟩
  | .hbm, ⟨19, _⟩ => ⟨S32x2048x160, .f32⟩
  | .hbm, ⟨20, _⟩ => ⟨S32x2048x2048, .f32⟩
  | .hbm, ⟨21, _⟩ => ⟨S_, .f32⟩
  | .hbm, ⟨22, _⟩ => ⟨S32x2048, .f32⟩
  | .hbm, ⟨23, _⟩ => ⟨S_, .f32⟩
  | .hbm, ⟨24, _⟩ => ⟨S32x2048, .f32⟩
  | .hbm, ⟨25, _⟩ => ⟨S32x2048, .f32⟩
  | .hbm, ⟨26, _⟩ => ⟨S32x2048x1, .f32⟩
  | .hbm, ⟨27, _⟩ => ⟨S32x2048x2048, .f32⟩
  | .hbm, ⟨28, _⟩ => ⟨S32x2048x2048, .f32⟩
  | .hbm, ⟨29, _⟩ => ⟨S32x2048x2048, .f32⟩
  | .hbm, ⟨30, _⟩ => ⟨S_, .f32⟩
  | .hbm, ⟨31, _⟩ => ⟨S32x2048, .f32⟩
  | .hbm, ⟨32, _⟩ => ⟨S32x2048x1, .f32⟩
  | .hbm, ⟨33, _⟩ => ⟨S32x2048x2048, .f32⟩
  | .hbm, ⟨34, _⟩ => ⟨S32x2048x2048, .f32⟩
  | .hbm, ⟨35, _⟩ => ⟨S32x2048x160, .f32⟩
  | .hbm, ⟨36, _⟩ => ⟨S32x2048x160, .f32⟩
  | _, _ => ⟨S32x2048x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S160_S1x1x160_2 : S160.BroadcastsInDim S1x1x160 (![2] : Fin 1 → Fin S1x1x160.rank)
  bcast_S1x1x160_S32x2048x160_0_1_2 : S1x1x160.BroadcastsInDim S32x2048x160 (![0, 1, 2] : Fin 3 → Fin S32x2048x160.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x160_S160x160_S32x2048x160_2_1_01_0_n_n_wf : DotDims.WF S32x2048x160 S160x160 S32x2048x160 [2] [1] [0, 1] [0] [] []
  dot_S32x2048x160_S32x2048x160_S32x2048x2048_2_2_1_1_0_0_wf : DotDims.WF S32x2048x160 S32x2048x160 S32x2048x2048 [2] [2] [1] [1] [0] [0]
  dot_S32x2048x2048_S32x2048x160_S32x2048x160_2_1_1_2_0_0_wf : DotDims.WF S32x2048x2048 S32x2048x160 S32x2048x160 [2] [1] [1] [2] [0] [0]

variable [Facts₀]

def dot_S32x2048x160_S160x160_S32x2048x160_2_1_01_0_n_n : DotDims S32x2048x160 S160x160 S32x2048x160 where
  lhsContracting := [2]
  rhsContracting := [1]
  lhsNonContracting := [0, 1]
  rhsNonContracting := [0]
  lhsBatch := []
  rhsBatch := []
  wf := dot_S32x2048x160_S160x160_S32x2048x160_2_1_01_0_n_n_wf
def dot_S32x2048x160_S32x2048x160_S32x2048x2048_2_2_1_1_0_0 : DotDims S32x2048x160 S32x2048x160 S32x2048x2048 where
  lhsContracting := [2]
  rhsContracting := [2]
  lhsNonContracting := [1]
  rhsNonContracting := [1]
  lhsBatch := [0]
  rhsBatch := [0]
  wf := dot_S32x2048x160_S32x2048x160_S32x2048x2048_2_2_1_1_0_0_wf
def dot_S32x2048x2048_S32x2048x160_S32x2048x160_2_1_1_2_0_0 : DotDims S32x2048x2048 S32x2048x160 S32x2048x160 where
  lhsContracting := [2]
  rhsContracting := [1]
  lhsNonContracting := [1]
  rhsNonContracting := [2]
  lhsBatch := [0]
  rhsBatch := [0]
  wf := dot_S32x2048x2048_S32x2048x160_S32x2048x160_2_1_1_2_0_0_wf

class Facts : Prop extends Facts₀ where

variable [Facts]
-- ==== Proof.Tile.lean ====
/-
  One grid point of the attention kernel as pure functions of what it loads.

  The body keeps, across the two key tiles of a query tile, four arrays: the projected queries `q` ([1024, 160]),
  the running row maximum `m`, the running normaliser `l` (both [1024, 1]) and the accumulator `acc` ([1024, 160]).
  At a tile it loads the query block `x0`, the key/value block `x1` and the three layers' transposed weights and
  biases (`x2, x3` queries; `x4, x5` keys; `x6, x7` values), and moves `(m, l, acc)` by the score tile
  `s = q · kᵀ`: the new maximum, the rescaled normaliser plus the row sums of `exp (s - m')`, the rescaled
  accumulator plus `exp (s - m') · v`. At the first tile it first sets `q` to the projection of `x0` and
  `(m, l, acc)` to `(-∞, 0, 0)`; at the last it writes `acc / l + x0`.

  These are the body's own payload terms composed in the order the body composes them, at any float instance.
-/
import proofs.«159856_j83305185673744_2_alg».proof.Proof.Gen.KernelIdeal.Skeleton

noncomputable section

namespace Cert.KernelIdeal.Tile

open Cert.KernelIdeal Cert.KernelIdeal.Gen Idealize.ShloMosaic

variable {F : FTy → Type} [FloatOps F]

/-- The projected query tile. -/
def q0 (x0 : Vec F S1x1024x160 .f32) (x2 : Vec F S160x160 .f32) (x3 : Vec F S160 .f32) : FVec F S1024x160 .f32 :=
  k0_pay5 x0 x2 x3

/-- The running maximum after a tile, from the queries `q` and the maximum `m` before it. -/
def mB (x1 : Vec F S1x1024x160 .f32) (x4 : Vec F S160x160 .f32) (x5 : Vec F S160 .f32)
    (q : Vec F S1024x160 .f32) (m : Vec F S1024x1 .f32) : FVec F S1024x1 .f32 :=
  k0_pay3 (k0_pay12 x1 x4 x5 q m)

/-- The running normaliser after a tile, from the queries, the maximum and the normaliser `l` before it. -/
def lB (x1 : Vec F S1x1024x160 .f32) (x4 : Vec F S160x160 .f32) (x5 : Vec F S160 .f32)
    (q : Vec F S1024x160 .f32) (m l : Vec F S1024x1 .f32) : FVec F S1024x1 .f32 :=
  k0_pay1 (k0_pay13 x1 x4 x5 q m) (k0_pay14 x1 x4 x5 q m) l

/-- The accumulator after a tile, from the queries, the maximum and the accumulator `acc` before it. -/
def accB (x1 : Vec F S1x1024x160 .f32) (x4 : Vec F S160x160 .f32) (x5 : Vec F S160 .f32) (x6 : Vec F S160x160 .f32)
    (x7 : Vec F S160 .f32) (q : Vec F S1024x160 .f32) (m : Vec F S1024x1 .f32) (acc : Vec F S1024x160 .f32) :
    FVec F S1024x160 .f32 :=
  k0_pay2 (k0_pay10 x1 x6 x7) (k0_pay13 x1 x4 x5 q m) (k0_pay14 x1 x4 x5 q m) acc

/-- What the last tile writes out: the accumulator over the normaliser, plus the query block. -/
def outB (x0 x1 : Vec F S1x1024x160 .f32) (x4 : Vec F S160x160 .f32) (x5 : Vec F S160 .f32) (x6 : Vec F S160x160 .f32)
    (x7 : Vec F S160 .f32) (q : Vec F S1024x160 .f32) (m l : Vec F S1024x1 .f32) (acc : Vec F S1024x160 .f32) :
    FVec F S1x1024x160 .f32 :=
  k0_pay4 (accB x1 x4 x5 x6 x7 q m acc) (lB x1 x4 x5 q m l) x0

/-- The output block of a query tile `x0` after its two key tiles `y0` (first) and `y1` (second): the first tile from
    the reset state, the second from what the first left, then the write-out. -/
def tileOut (x0 y0 y1 : Vec F S1x1024x160 .f32) (x2 : Vec F S160x160 .f32) (x3 : Vec F S160 .f32)
    (x4 : Vec F S160x160 .f32) (x5 : Vec F S160 .f32) (x6 : Vec F S160x160 .f32) (x7 : Vec F S160 .f32) :
    FVec F S1x1024x160 .f32 :=
  outB x0 y1 x4 x5 x6 x7 (q0 x0 x2 x3)
    (mB y0 x4 x5 (q0 x0 x2 x3) k0_pay6)
    (lB y0 x4 x5 (q0 x0 x2 x3) k0_pay6 k0_pay7)
    (accB y0 x4 x5 x6 x7 (q0 x0 x2 x3) k0_pay6 k0_pay8)

end Cert.KernelIdeal.Tile

end
-- ==== Proof.Pieces.lean ====
/-
  What one grid point leaves behind, as the body's own step functions.

  At the first key tile of a query tile (`ki = 0`) the body stores the projected queries, then resets the running
  maximum, normaliser and accumulator and moves them by the tile; each of the four carried arrays ends holding ONE
  whole-array store — the last one into it — whose value is the step function of `Tile.lean` at the reset state, the
  loads of what the body itself has just stored reading back the stored values. At the last key tile (`ki = 1`) the
  output block ends holding the write-out of the state moved from what the tile before left.
-/
import proofs.«159856_j83305185673744_2_alg».proof.Proof.Gen.KernelIdeal.Frame
import proofs.«159856_j83305185673744_2_alg».proof.Proof.Tile
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL Idealize.SL.Sem

variable {F : FTy → Type} [FloatOps F]

/-- The all-zero offset of a rank-1, rank-2, rank-3 whole-array rectangle. -/
theorem hz1 : (![0] : Fin 1 → Nat) = fun _ => 0 := funext fun a => by match a with | ⟨0, _⟩ => rfl
theorem hz2 : (![0, 0] : Fin 2 → Nat) = fun _ => 0 := funext fun a => by match a with | ⟨0, _⟩ => rfl | ⟨1, _⟩ => rfl
theorem hz3 : (![0, 0, 0] : Fin 3 → Nat) = fun _ => 0 :=
  funext fun a => by match a with | ⟨0, _⟩ => rfl | ⟨1, _⟩ => rfl | ⟨2, _⟩ => rfl

/-- After the first key tile, carried array 0. -/
theorem sout_A_0 (c : Dev nD) (i : grid0.Coords) (arg3 : Memref sig .tc .vmem S1x1024x160 .f32) (harg3 : arg3.IsWhole) (arg4 : Memref sig .tc .vmem S1x1024x160 .f32) (harg4 : arg4.IsWhole) (arg5 : Memref sig .tc .vmem S160x160 .f32) (harg5 : arg5.IsWhole) (arg6 : Memref sig .tc .vmem S160 .f32) (harg6 : arg6.IsWhole) (arg7 : Memref sig .tc .vmem S160x160 .f32) (harg7 : arg7.IsWhole) (arg8 : Memref sig .tc .vmem S160 .f32) (harg8 : arg8.IsWhole) (arg9 : Memref sig .tc .vmem S160x160 .f32) (harg9 : arg9.IsWhole) (arg10 : Memref sig .tc .vmem S160 .f32) (harg10 : arg10.IsWhole) (arg11 : Memref sig .tc .vmem S1x1024x160 .f32) (harg11 : arg11.IsWhole) (arg12 : Memref sig .tc .vmem S1024x160 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x160 .f32) (harg15 : arg15.IsWhole) (hc0 : cond0_0 i) (hc1 : ¬cond0_1 i) (x0 : Vec F S1x1024x160 .f32) (x1 : Vec F S1x1024x160 .f32) (x2 : Vec F S160x160 .f32) (x3 : Vec F S160 .f32) (x4 : Vec F S160x160 .f32) (x5 : Vec F S160 .f32) (x6 : Vec F S160x160 .f32) (x7 : Vec F S160 .f32) :
    sout0_A_0 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = Tile.q0 x0 x2 x3 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  rw [View.canon_cons_unit_zero hz2]
  simp only [View.readAt_eq_ld, harg3.read_unread, harg4.read_unread, harg5.read_unread, harg6.read_unread, harg7.read_unread, harg8.read_unread, harg9.read_unread, harg10.read_unread, View.readCov_unit_zero (S := S1024x160) _ hz2, View.readCov_unit_zero (S := S1024x1) _ hz2, View.ld_unit_zero (S := S1x1024x160) hz3, View.ld_unit_zero (S := S160x160) hz2, View.ld_unit_zero (S := S160) hz1, View.ld_unit_zero (S := S1024x160) hz2, View.ld_unit_zero (S := S1024x1) hz2]
  rfl

/-- After the first key tile, carried array 1. -/
theorem sout_A_1 (c : Dev nD) (i : grid0.Coords) (arg3 : Memref sig .tc .vmem S1x1024x160 .f32) (harg3 : arg3.IsWhole) (arg4 : Memref sig .tc .vmem S1x1024x160 .f32) (harg4 : arg4.IsWhole) (arg5 : Memref sig .tc .vmem S160x160 .f32) (harg5 : arg5.IsWhole) (arg6 : Memref sig .tc .vmem S160 .f32) (harg6 : arg6.IsWhole) (arg7 : Memref sig .tc .vmem S160x160 .f32) (harg7 : arg7.IsWhole) (arg8 : Memref sig .tc .vmem S160 .f32) (harg8 : arg8.IsWhole) (arg9 : Memref sig .tc .vmem S160x160 .f32) (harg9 : arg9.IsWhole) (arg10 : Memref sig .tc .vmem S160 .f32) (harg10 : arg10.IsWhole) (arg11 : Memref sig .tc .vmem S1x1024x160 .f32) (harg11 : arg11.IsWhole) (arg12 : Memref sig .tc .vmem S1024x160 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x160 .f32) (harg15 : arg15.IsWhole) (hc0 : cond0_0 i) (hc1 : ¬cond0_1 i) (x0 : Vec F S1x1024x160 .f32) (x1 : Vec F S1x1024x160 .f32) (x2 : Vec F S160x160 .f32) (x3 : Vec F S160 .f32) (x4 : Vec F S160x160 .f32) (x5 : Vec F S160 .f32) (x6 : Vec F S160x160 .f32) (x7 : Vec F S160 .f32) :
    sout0_A_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = Tile.mB x1 x4 x5 (Tile.q0 x0 x2 x3) k0_pay6 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  rw [View.canon_cons_unit_zero hz2]
  simp only [View.readAt_eq_ld, harg3.read_unread, harg4.read_unread, harg5.read_unread, harg6.read_unread, harg7.read_unread, harg8.read_unread, harg9.read_unread, harg10.read_unread, View.readCov_unit_zero (S := S1024x160) _ hz2, View.readCov_unit_zero (S := S1024x1) _ hz2, View.ld_unit_zero (S := S1x1024x160) hz3, View.ld_unit_zero (S := S160x160) hz2, View.ld_unit_zero (S := S160) hz1, View.ld_unit_zero (S := S1024x160) hz2, View.ld_unit_zero (S := S1024x1) hz2]
  rfl

/-- After the first key tile, carried array 2. -/
theorem sout_A_2 (c : Dev nD) (i : grid0.Coords) (arg3 : Memref sig .tc .vmem S1x1024x160 .f32) (harg3 : arg3.IsWhole) (arg4 : Memref sig .tc .vmem S1x1024x160 .f32) (harg4 : arg4.IsWhole) (arg5 : Memref sig .tc .vmem S160x160 .f32) (harg5 : arg5.IsWhole) (arg6 : Memref sig .tc .vmem S160 .f32) (harg6 : arg6.IsWhole) (arg7 : Memref sig .tc .vmem S160x160 .f32) (harg7 : arg7.IsWhole) (arg8 : Memref sig .tc .vmem S160 .f32) (harg8 : arg8.IsWhole) (arg9 : Memref sig .tc .vmem S160x160 .f32) (harg9 : arg9.IsWhole) (arg10 : Memref sig .tc .vmem S160 .f32) (harg10 : arg10.IsWhole) (arg11 : Memref sig .tc .vmem S1x1024x160 .f32) (harg11 : arg11.IsWhole) (arg12 : Memref sig .tc .vmem S1024x160 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x160 .f32) (harg15 : arg15.IsWhole) (hc0 : cond0_0 i) (hc1 : ¬cond0_1 i) (x0 : Vec F S1x1024x160 .f32) (x1 : Vec F S1x1024x160 .f32) (x2 : Vec F S160x160 .f32) (x3 : Vec F S160 .f32) (x4 : Vec F S160x160 .f32) (x5 : Vec F S160 .f32) (x6 : Vec F S160x160 .f32) (x7 : Vec F S160 .f32) :
    sout0_A_2 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = Tile.lB x1 x4 x5 (Tile.q0 x0 x2 x3) k0_pay6 k0_pay7 := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  rw [View.canon_cons_unit_zero hz2]
  simp only [View.readAt_eq_ld, harg3.read_unread, harg4.read_unread, harg5.read_unread, harg6.read_unread, harg7.read_unread, harg8.read_unread, harg9.read_unread, harg10.read_unread, View.readCov_unit_zero (S := S1024x160) _ hz2, View.readCov_unit_zero (S := S1024x1) _ hz2, View.ld_unit_zero (S := S1x1024x160) hz3, View.ld_unit_zero (S := S160x160) hz2, View.ld_unit_zero (S := S160) hz1, View.ld_unit_zero (S := S1024x160) hz2, View.ld_unit_zero (S := S1024x1) hz2]
  rfl

/-- After the first key tile, carried array 3. -/
theorem sout_A_3 (c : Dev nD) (i : grid0.Coords) (arg3 : Memref sig .tc .vmem S1x1024x160 .f32) (harg3 : arg3.IsWhole) (arg4 : Memref sig .tc .vmem S1x1024x160 .f32) (harg4 : arg4.IsWhole) (arg5 : Memref sig .tc .vmem S160x160 .f32) (harg5 : arg5.IsWhole) (arg6 : Memref sig .tc .vmem S160 .f32) (harg6 : arg6.IsWhole) (arg7 : Memref sig .tc .vmem S160x160 .f32) (harg7 : arg7.IsWhole) (arg8 : Memref sig .tc .vmem S160 .f32) (harg8 : arg8.IsWhole) (arg9 : Memref sig .tc .vmem S160x160 .f32) (harg9 : arg9.IsWhole) (arg10 : Memref sig .tc .vmem S160 .f32) (harg10 : arg10.IsWhole) (arg11 : Memref sig .tc .vmem S1x1024x160 .f32) (harg11 : arg11.IsWhole) (arg12 : Memref sig .tc .vmem S1024x160 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x160 .f32) (harg15 : arg15.IsWhole) (hc0 : cond0_0 i) (hc1 : ¬cond0_1 i) (x0 : Vec F S1x1024x160 .f32) (x1 : Vec F S1x1024x160 .f32) (x2 : Vec F S160x160 .f32) (x3 : Vec F S160 .f32) (x4 : Vec F S160x160 .f32) (x5 : Vec F S160 .f32) (x6 : Vec F S160x160 .f32) (x7 : Vec F S160 .f32) :
    sout0_A_3 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = Tile.accB x1 x4 x5 x6 x7 (Tile.q0 x0 x2 x3) k0_pay6 k0_pay8 := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  rw [View.canon_cons_unit_zero hz2]
  simp only [View.readAt_eq_ld, harg3.read_unread, harg4.read_unread, harg5.read_unread, harg6.read_unread, harg7.read_unread, harg8.read_unread, harg9.read_unread, harg10.read_unread, View.readCov_unit_zero (S := S1024x160) _ hz2, View.readCov_unit_zero (S := S1024x1) _ hz2, View.ld_unit_zero (S := S1x1024x160) hz3, View.ld_unit_zero (S := S160x160) hz2, View.ld_unit_zero (S := S160) hz1, View.ld_unit_zero (S := S1024x160) hz2, View.ld_unit_zero (S := S1024x1) hz2]
  rfl

/-- At the last key tile, the output block: the write-out over the state the tile before left. -/
theorem out_B_8 (c : Dev nD) (i : grid0.Coords) (arg3 : Memref sig .tc .vmem S1x1024x160 .f32) (harg3 : arg3.IsWhole) (arg4 : Memref sig .tc .vmem S1x1024x160 .f32) (harg4 : arg4.IsWhole) (arg5 : Memref sig .tc .vmem S160x160 .f32) (harg5 : arg5.IsWhole) (arg6 : Memref sig .tc .vmem S160 .f32) (harg6 : arg6.IsWhole) (arg7 : Memref sig .tc .vmem S160x160 .f32) (harg7 : arg7.IsWhole) (arg8 : Memref sig .tc .vmem S160 .f32) (harg8 : arg8.IsWhole) (arg9 : Memref sig .tc .vmem S160x160 .f32) (harg9 : arg9.IsWhole) (arg10 : Memref sig .tc .vmem S160 .f32) (harg10 : arg10.IsWhole) (arg11 : Memref sig .tc .vmem S1x1024x160 .f32) (harg11 : arg11.IsWhole) (arg12 : Memref sig .tc .vmem S1024x160 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x160 .f32) (harg15 : arg15.IsWhole) (hc0 : ¬cond0_0 i) (hc1 : cond0_1 i) (x0 : Vec F S1x1024x160 .f32) (x1 : Vec F S1x1024x160 .f32) (x2 : Vec F S160x160 .f32) (x3 : Vec F S160 .f32) (x4 : Vec F S160x160 .f32) (x5 : Vec F S160 .f32) (x6 : Vec F S160x160 .f32) (x7 : Vec F S160 .f32) (xs0 : Vec F S1024x160 .f32) (xs1 : Vec F S1024x1 .f32) (xs2 : Vec F S1024x1 .f32) (xs3 : Vec F S1024x160 .f32) :
    out0_B_8 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 = Tile.outB x0 x1 x4 x5 x6 x7 xs0 xs1 xs2 xs3 := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3)]
  unfold kernelRun0_B
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, harg12.read_unread, harg13.read_unread, harg14.read_unread, harg15.read_unread, View.readCov_unit_zero (S := S1024x160) _ hz2, View.readCov_unit_zero (S := S1024x1) _ hz2, View.ld_unit_zero (S := S1x1024x160) hz3, View.ld_unit_zero (S := S160x160) hz2, View.ld_unit_zero (S := S160) hz1, View.ld_unit_zero (S := S1024x160) hz2, View.ld_unit_zero (S := S1024x1) hz2]
  rfl

end Cert.KernelIdeal.Pieces

end
-- ==== Proof.State.lean ====
/-
  What a query tile's last grid point writes back.

  The grid runs the two key tiles of a query tile at consecutive points `t - 1` (even: the first tile, which resets the
  carried state) and `t` (odd: the last tile, which writes the output block). After an even point the four carried arrays
  hold the first tile's step from the reset state, as functions of that point's input blocks; at the odd point the
  output block is the write-out of the state moved once more by that point's blocks.
-/
import proofs.«159856_j83305185673744_2_alg».proof.Proof.Gen.KernelIdeal.Value
import proofs.«159856_j83305185673744_2_alg».proof.Proof.Pieces

set_option maxRecDepth 16384

noncomputable section

namespace Cert.KernelIdeal.State

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- After an even point, the projected queries. -/
theorem carried_q (c : Dev nD) (n : ℕ) (hn : n < cfg0.N) (h0 : n % 2 = 0) (h1 : ¬n % 2 = 1) :
    (outsAt0 m c n hn).2.1 = Tile.q0 (iblk m c 0 ⟨n, hn⟩) (iblk m c 2 ⟨n, hn⟩) (iblk m c 3 ⟨n, hn⟩) := by
  rw [outsAt0_A m c ⟨n, hn⟩ h0 h1]
  dsimp only
  exact Pieces.sout_A_0 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) scM0_1 (Memref.isWhole_whole _) scM0_2 (Memref.isWhole_whole _) scM0_3 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩)

/-- After an even point, the running maximum. -/
theorem carried_m (c : Dev nD) (n : ℕ) (hn : n < cfg0.N) (h0 : n % 2 = 0) (h1 : ¬n % 2 = 1) :
    (outsAt0 m c n hn).2.2.1 = Tile.mB (iblk m c 1 ⟨n, hn⟩) (iblk m c 4 ⟨n, hn⟩) (iblk m c 5 ⟨n, hn⟩) (Tile.q0 (iblk m c 0 ⟨n, hn⟩) (iblk m c 2 ⟨n, hn⟩) (iblk m c 3 ⟨n, hn⟩)) k0_pay6 := by
  rw [outsAt0_A m c ⟨n, hn⟩ h0 h1]
  dsimp only
  exact Pieces.sout_A_1 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) scM0_1 (Memref.isWhole_whole _) scM0_2 (Memref.isWhole_whole _) scM0_3 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩)

/-- After an even point, the running normaliser. -/
theorem carried_l (c : Dev nD) (n : ℕ) (hn : n < cfg0.N) (h0 : n % 2 = 0) (h1 : ¬n % 2 = 1) :
    (outsAt0 m c n hn).2.2.2.1 = Tile.lB (iblk m c 1 ⟨n, hn⟩) (iblk m c 4 ⟨n, hn⟩) (iblk m c 5 ⟨n, hn⟩) (Tile.q0 (iblk m c 0 ⟨n, hn⟩) (iblk m c 2 ⟨n, hn⟩) (iblk m c 3 ⟨n, hn⟩)) k0_pay6 k0_pay7 := by
  rw [outsAt0_A m c ⟨n, hn⟩ h0 h1]
  dsimp only
  exact Pieces.sout_A_2 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) scM0_1 (Memref.isWhole_whole _) scM0_2 (Memref.isWhole_whole _) scM0_3 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩)

/-- After an even point, the accumulator. -/
theorem carried_acc (c : Dev nD) (n : ℕ) (hn : n < cfg0.N) (h0 : n % 2 = 0) (h1 : ¬n % 2 = 1) :
    (outsAt0 m c n hn).2.2.2.2 = Tile.accB (iblk m c 1 ⟨n, hn⟩) (iblk m c 4 ⟨n, hn⟩) (iblk m c 5 ⟨n, hn⟩) (iblk m c 6 ⟨n, hn⟩) (iblk m c 7 ⟨n, hn⟩) (Tile.q0 (iblk m c 0 ⟨n, hn⟩) (iblk m c 2 ⟨n, hn⟩) (iblk m c 3 ⟨n, hn⟩)) k0_pay6 k0_pay8 := by
  rw [outsAt0_A m c ⟨n, hn⟩ h0 h1]
  dsimp only
  exact Pieces.sout_A_3 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) scM0_1 (Memref.isWhole_whole _) scM0_2 (Memref.isWhole_whole _) scM0_3 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩)

/-- At an odd point `t` the block written back is the write-out of the state the point before left, moved by this
    point's key tile. -/
theorem flushed_odd (c : Dev nD) (t : Fin cfg0.N) (h0 : ¬t.val % 2 = 0) (h1 : t.val % 2 = 1) :
    (dats m 0 c).flushed 8 t = (cfg0.win 8).cut (grid0.coords t)
      (Tile.outB (iblk m c 0 t) (iblk m c 1 t) (iblk m c 4 t) (iblk m c 5 t) (iblk m c 6 t) (iblk m c 7 t)
        (outsAt0 m c (t.val - 1) (Nat.lt_of_le_of_lt (Nat.sub_le _ _) t.isLt)).2.1
        (outsAt0 m c (t.val - 1) (Nat.lt_of_le_of_lt (Nat.sub_le _ _) t.isLt)).2.2.1
        (outsAt0 m c (t.val - 1) (Nat.lt_of_le_of_lt (Nat.sub_le _ _) t.isLt)).2.2.2.1
        (outsAt0 m c (t.val - 1) (Nat.lt_of_le_of_lt (Nat.sub_le _ _) t.isLt)).2.2.2.2) := by
  rw [Value.flushed8_B m c t h0 h1]
  exact congrArg ((cfg0.win 8).cut (grid0.coords t)) (Pieces.out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _ _ _)

end Cert.KernelIdeal.State

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.BlockAt.lean ====
/-
  The windows' blocks at a grid point, read at an index.

  The grid has 32 · 2 · 2 points; point `t` is batch `b = t / 4`, query tile `qi = t / 2 % 2`, key tile `ki = t % 2`.
  The query input's and the output's blocks are rows `1024 qi … 1024 qi + 1023` of batch `b`; the key/value input's
  block is rows `1024 ki …` of batch `b`; the six weight and bias windows are the whole arrays. The three weight windows
  stage the host's transposes of the weight arguments, so their entry `(d, e)` is the argument's entry `(e, d)`.
-/
import proofs.«159856_j83305185673744_2_alg».proof.Proof.Gen.KernelIdeal.Frame
import proofs.«159856_j83305185673744_2_alg».proof.Proof.LibMatmul
import Idealize.ShloMosaic.Lib.Pipeline.Value
import Idealize.ShloMosaic.Lib.ValueIdx
import Idealize.ShloMosaic.Lib.StableHlo.Run

set_option maxRecDepth 16384

noncomputable section

namespace Cert.KernelIdeal.BlockAt

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The printed index maps over the grid, in closed form. -/
theorem idx_facts : ∀ t : Fin cfg0.N,
    win0_0.index t (0 : Fin 3) = t.val / 4 ∧ win0_0.index t (1 : Fin 3) = t.val / 2 % 2 ∧ win0_0.index t (2 : Fin 3) = 0
    ∧ win0_1.index t (0 : Fin 3) = t.val / 4 ∧ win0_1.index t (1 : Fin 3) = t.val % 2 ∧ win0_1.index t (2 : Fin 3) = 0
    ∧ win0_8.index t (0 : Fin 3) = t.val / 4 ∧ win0_8.index t (1 : Fin 3) = t.val / 2 % 2 ∧ win0_8.index t (2 : Fin 3) = 0 :=
  (by decide +kernel : ∀ t : Fin grid0.N, _)

/-- The weight and bias windows never move. -/
theorem idx_facts_w : ∀ t : Fin cfg0.N,
    win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0 :=
  (by decide +kernel : ∀ t : Fin grid0.N, _)

/-- The query input's block at point `t`, at `(u, i, d)`: the argument at batch `t / 4`, row `1024 (t / 2 % 2) + i`. -/
theorem iblk0_apply (c : Dev nD) (t : Fin cfg0.N) (u : Fin 1) (i : Fin 1024) (d : Fin 160) (b : Fin 32) (r : Fin 2048)
    (hb : b.val = t.val / 4) (hr : r.val = 1024 * (t.val / 2 % 2) + i.val) :
    (iblk m c 0 t : Vec F S1x1024x160 .f32) (ix3 u i d) = m ((c : Thread nD τ).loc main_arg0) (ix3 b r d) := by
  obtain ⟨e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 1 + 1 * u.val = b.val; omega
  | ⟨1, _⟩ => show win0_0.index t (1 : Fin 3) * 1024 + 1 * i.val = r.val; omega
  | ⟨2, _⟩ => show win0_0.index t (2 : Fin 3) * 160 + 1 * d.val = d.val; omega

/-- The key/value input's block at point `t`, at `(u, j, d)`: the argument at batch `t / 4`, row `1024 (t % 2) + j`. -/
theorem iblk1_apply (c : Dev nD) (t : Fin cfg0.N) (u : Fin 1) (j : Fin 1024) (d : Fin 160) (b : Fin 32) (r : Fin 2048)
    (hb : b.val = t.val / 4) (hr : r.val = 1024 * (t.val % 2) + j.val) :
    (iblk m c 1 t : Vec F S1x1024x160 .f32) (ix3 u j d) = m ((c : Thread nD τ).loc main_arg1) (ix3 b r d) := by
  obtain ⟨-, -, -, e0, e1, e2, -⟩ := idx_facts t
  unfold iblk
  rw [View.read_apply]
  show V m c main_arg1 _ = _
  rw [V_main_arg1]
  congr 1
  funext a
  apply Fin.ext
  match a with
  | ⟨0, _⟩ => show win0_1.index t (0 : Fin 3) * 1 + 1 * u.val = b.val; omega
  | ⟨1, _⟩ => show win0_1.index t (1 : Fin 3) * 1024 + 1 * j.val = r.val; omega
  | ⟨2, _⟩ => show win0_1.index t (2 : Fin 3) * 160 + 1 * d.val = d.val; omega

/-- The region finds weight window 2's array at the host's transpose of the query weight. -/
theorem V_main_v0 (c : Dev nD) :
    (V m c main_v0 : S160x160.Idx → Elt F .f32)
      = transpose S160x160 [1, 0] (m ((c : Thread nD τ).loc main_arg2)) transposes_S160x160_S160x160_1_0 := by
  dsimp only [V, hostOps0]
  after_results

/-- The query weight window's block, at `(d, e)`: the weight argument at `(e, d)`. -/
theorem iblk2_apply (c : Dev nD) (t : Fin cfg0.N) (d e : Fin 160) :
    (iblk m c 2 t : Vec F S160x160 .f32) (ix2 d e) = m ((c : Thread nD τ).loc main_arg2) (ix2 e d) := by
  obtain ⟨e2a, e2b, e3, e4a, e4b, e5, e6a, e6b, e7⟩ := idx_facts_w t
  unfold iblk
  rw [View.read_apply]
  show (V m c main_v0 : S160x160.Idx → Elt F .f32) _ = _
  rw [V_main_v0]
  refine (congrArg _ ?_).trans (Cert.MatOps.transpose10_apply _ _ d e)
  funext a
  apply Fin.ext
  match a with
  | ⟨0, _⟩ => show win0_2.index t (0 : Fin 2) * 160 + 1 * d.val = d.val; omega
  | ⟨1, _⟩ => show win0_2.index t (1 : Fin 2) * 160 + 1 * e.val = e.val; omega

/-- The query bias window's block is the bias argument. -/
theorem iblk3_apply (c : Dev nD) (t : Fin cfg0.N) (e : Fin 160) :
    (iblk m c 3 t : Vec F S160 .f32) (ix1 e) = m ((c : Thread nD τ).loc main_arg3) (ix1 e) := by
  obtain ⟨e2a, e2b, e3, e4a, e4b, e5, e6a, e6b, e7⟩ := idx_facts_w t
  unfold iblk
  rw [View.read_apply]
  show V m c main_arg3 _ = _
  rw [V_main_arg3]
  congr 1
  funext a
  apply Fin.ext
  match a with
  | ⟨0, _⟩ => show win0_3.index t (0 : Fin 1) * 160 + 1 * e.val = e.val; omega

/-- The region finds weight window 4's array at the host's transpose of the key weight. -/
theorem V_main_v1 (c : Dev nD) :
    (V m c main_v1 : S160x160.Idx → Elt F .f32)
      = transpose S160x160 [1, 0] (m ((c : Thread nD τ).loc main_arg4)) transposes_S160x160_S160x160_1_0 := by
  dsimp only [V, hostOps0]
  after_results

/-- The key weight window's block, at `(d, e)`: the weight argument at `(e, d)`. -/
theorem iblk4_apply (c : Dev nD) (t : Fin cfg0.N) (d e : Fin 160) :
    (iblk m c 4 t : Vec F S160x160 .f32) (ix2 d e) = m ((c : Thread nD τ).loc main_arg4) (ix2 e d) := by
  obtain ⟨e2a, e2b, e3, e4a, e4b, e5, e6a, e6b, e7⟩ := idx_facts_w t
  unfold iblk
  rw [View.read_apply]
  show (V m c main_v1 : S160x160.Idx → Elt F .f32) _ = _
  rw [V_main_v1]
  refine (congrArg _ ?_).trans (Cert.MatOps.transpose10_apply _ _ d e)
  funext a
  apply Fin.ext
  match a with
  | ⟨0, _⟩ => show win0_4.index t (0 : Fin 2) * 160 + 1 * d.val = d.val; omega
  | ⟨1, _⟩ => show win0_4.index t (1 : Fin 2) * 160 + 1 * e.val = e.val; omega

/-- The key bias window's block is the bias argument. -/
theorem iblk5_apply (c : Dev nD) (t : Fin cfg0.N) (e : Fin 160) :
    (iblk m c 5 t : Vec F S160 .f32) (ix1 e) = m ((c : Thread nD τ).loc main_arg5) (ix1 e) := by
  obtain ⟨e2a, e2b, e3, e4a, e4b, e5, e6a, e6b, e7⟩ := idx_facts_w t
  unfold iblk
  rw [View.read_apply]
  show V m c main_arg5 _ = _
  rw [V_main_arg5]
  congr 1
  funext a
  apply Fin.ext
  match a with
  | ⟨0, _⟩ => show win0_5.index t (0 : Fin 1) * 160 + 1 * e.val = e.val; omega

/-- The region finds weight window 6's array at the host's transpose of the value weight. -/
theorem V_main_v2 (c : Dev nD) :
    (V m c main_v2 : S160x160.Idx → Elt F .f32)
      = transpose S160x160 [1, 0] (m ((c : Thread nD τ).loc main_arg6)) transposes_S160x160_S160x160_1_0 := by
  dsimp only [V, hostOps0]
  after_results

/-- The value weight window's block, at `(d, e)`: the weight argument at `(e, d)`. -/
theorem iblk6_apply (c : Dev nD) (t : Fin cfg0.N) (d e : Fin 160) :
    (iblk m c 6 t : Vec F S160x160 .f32) (ix2 d e) = m ((c : Thread nD τ).loc main_arg6) (ix2 e d) := by
  obtain ⟨e2a, e2b, e3, e4a, e4b, e5, e6a, e6b, e7⟩ := idx_facts_w t
  unfold iblk
  rw [View.read_apply]
  show (V m c main_v2 : S160x160.Idx → Elt F .f32) _ = _
  rw [V_main_v2]
  refine (congrArg _ ?_).trans (Cert.MatOps.transpose10_apply _ _ d e)
  funext a
  apply Fin.ext
  match a with
  | ⟨0, _⟩ => show win0_6.index t (0 : Fin 2) * 160 + 1 * d.val = d.val; omega
  | ⟨1, _⟩ => show win0_6.index t (1 : Fin 2) * 160 + 1 * e.val = e.val; omega

/-- The value bias window's block is the bias argument. -/
theorem iblk7_apply (c : Dev nD) (t : Fin cfg0.N) (e : Fin 160) :
    (iblk m c 7 t : Vec F S160 .f32) (ix1 e) = m ((c : Thread nD τ).loc main_arg7) (ix1 e) := by
  obtain ⟨e2a, e2b, e3, e4a, e4b, e5, e6a, e6b, e7⟩ := idx_facts_w t
  unfold iblk
  rw [View.read_apply]
  show V m c main_arg7 _ = _
  rw [V_main_arg7]
  congr 1
  funext a
  apply Fin.ext
  match a with
  | ⟨0, _⟩ => show win0_7.index t (0 : Fin 1) * 160 + 1 * e.val = e.val; omega

/-- The output block's index `(u, i, d)` at point `t` sits in the array at batch `t / 4`, row `1024 (t / 2 % 2) + i`. -/
theorem emb8 (t : Fin cfg0.N) (u : Fin 1) (i : Fin 1024) (d : Fin 160) (b : Fin 32) (r : Fin 2048)
    (hb : b.val = t.val / 4) (hr : r.val = 1024 * (t.val / 2 % 2) + i.val) :
    ((cfg0.win 8).blk t).view.emb (ix3 u i d : S1x1024x160.Idx) = (ix3 b r d : S32x2048x160.Idx) := by
  obtain ⟨-, -, -, -, -, -, e0, e1, e2⟩ := idx_facts t
  funext a
  apply Fin.ext
  match a with
  | ⟨0, _⟩ => show win0_8.index t (0 : Fin 3) * 1 + 1 * u.val = b.val; omega
  | ⟨1, _⟩ => show win0_8.index t (1 : Fin 3) * 1024 + 1 * i.val = r.val; omega
  | ⟨2, _⟩ => show win0_8.index t (2 : Fin 3) * 160 + 1 * d.val = d.val; omega

end Cert.KernelIdeal.BlockAt

end
-- ==== Proof.Cover.lean ====
/-
  The output blocks of the odd grid points tile the output array.

  Index `(b, r, d)` of the output lies in the block of point `t = 4 b + 2 (r / 1024) + 1`, the last key tile of batch
  `b`'s query tile `r / 1024`, which is a point that writes its block back.
-/
import proofs.«159856_j83305185673744_2_alg».proof.Proof.BlockAt

set_option maxRecDepth 16384

noncomputable section

namespace Cert.KernelIdeal.Cover

open Cert.KernelIdeal Cert.KernelIdeal.Gen Idealize.ShloMosaic Idealize.ShloMosaic.TcCoe Idealize.SL.Sem

/-- An index of the output array is in point `t`'s block iff each coordinate is in the block's range on its axis. -/
theorem mem_blk8 (t : Fin cfg0.N) (i : S32x2048x160.Idx) :
    i ∈ ((cfg0.win 8).blk t).view.set ↔ ∀ a : Fin 3, win0_8.index t a * S1x1024x160.size a ≤ (i a).val
      ∧ (i a).val < win0_8.index t a * S1x1024x160.size a + S1x1024x160.size a := by
  show i ∈ ((View.whole main_v3).slice (win0_8.rect t)).set ↔ _
  rw [View.set_slice_whole, Rect.mem_set_unit]
  exact Iff.rfl

/-- Every index of the output array is in the block of some point that writes back. -/
theorem cover8 (i : S32x2048x160.Idx) :
    ∃ t : Fin cfg0.N, (cfg0.win 8).flush t = true ∧ i ∈ ((cfg0.win 8).blk t).view.set := by
  have hN : cfg0.N = 128 := N_0
  have h0 : (i 0).val < 32 := (i 0).isLt
  have h1 : (i 1).val < 2048 := (i 1).isLt
  have h2 : (i 2).val < 160 := (i 2).isLt
  have ht : 4 * (i 0).val + 2 * ((i 1).val / 1024) + 1 < cfg0.N := by rw [hN]; omega
  refine ⟨⟨4 * (i 0).val + 2 * ((i 1).val / 1024) + 1, ht⟩, (flush0_8 _).mpr (by show (4 * (i 0).val + 2 * ((i 1).val / 1024) + 1) % 2 = 1; omega), ?_⟩
  obtain ⟨-, -, -, -, -, -, e0, e1, e2⟩ := BlockAt.idx_facts ⟨4 * (i 0).val + 2 * ((i 1).val / 1024) + 1, ht⟩
  have e0' : win0_8.index ⟨4 * (i 0).val + 2 * ((i 1).val / 1024) + 1, ht⟩ (0 : Fin 3) = (4 * (i 0).val + 2 * ((i 1).val / 1024) + 1) / 4 := e0
  have e1' : win0_8.index ⟨4 * (i 0).val + 2 * ((i 1).val / 1024) + 1, ht⟩ (1 : Fin 3) = (4 * (i 0).val + 2 * ((i 1).val / 1024) + 1) / 2 % 2 := e1
  rw [mem_blk8]
  intro a
  match a with
  | ⟨0, _⟩ =>
    show win0_8.index _ (0 : Fin 3) * 1 ≤ (i 0).val ∧ (i 0).val < win0_8.index _ (0 : Fin 3) * 1 + 1
    rw [e0']; omega
  | ⟨1, _⟩ =>
    show win0_8.index _ (1 : Fin 3) * 1024 ≤ (i 1).val ∧ (i 1).val < win0_8.index _ (1 : Fin 3) * 1024 + 1024
    rw [e1']; omega
  | ⟨2, _⟩ =>
    show win0_8.index _ (2 : Fin 3) * 160 ≤ (i 2).val ∧ (i 2).val < win0_8.index _ (2 : Fin 3) * 160 + 160
    rw [e2]; omega

end Cert.KernelIdeal.Cover

end
-- ==== Proof.Attention.lean ====
/-
  Softmax attention with a residual, of ONE query row against a family of key rows, in two arrangements on the
  extended reals.

  A row `a : Fin 160 → EReal` goes through a linear layer `W, bias` as `lin a W bias e = (∑ d, a d * W e d) + bias e`.
  The score of a query row `x` against a key row `y` is `∑ e, q e * k e` with `q = lin x Wq bq`, `k = lin y Wk bk`; the
  value row of `y` is `lin y Wv bv`.

  * `full`: with `s j` the scores against all `n` key rows, `M` their maximum (a fold of `max` from `⊥`),
    `p j = exp (s j - M)` and `L = ∑ j, p j`, the result at column `d` is `(∑ j, (p j / L) * v j d) + x d`.
  * `online`: the key rows come in two tiles. A running maximum `m`, normaliser `l` and accumulator `acc` start at
    `⊥, 0, 0`; a tile with scores `s` and values `v` moves them to `m' = max m (max_j s j)`,
    `l' = exp (m - m') * l + ∑ j, exp (s j - m')`, `acc' = exp (m - m') * acc + ∑ j, exp (s j - m') * v j`; after
    both tiles the result is `acc / l + x d`.

  Nothing is proved here: the two are DEFINITIONS, stated over plain coordinate functions so that a program's value
  can be set against them index by index. That they agree on real inputs is `AttentionLaw`.
-/
import Idealize.ShloMosaic.PureOps.Ideal
import Idealize.ShloMosaic.Lib.ValueIdx

noncomputable section

namespace Cert.Attention

open Idealize.ShloMosaic

/-- One entry of a linear layer applied to a row: `(∑ d, a d * W e d) + bias e` (the weight is indexed
    `[out, in]`). -/
def lin (a : Fin 160 → EReal) (W : Fin 160 → Fin 160 → EReal) (bias : Fin 160 → EReal) (e : Fin 160) : EReal :=
  (∑ d : Fin 160, a d * W e d) + bias e

/-- The score of a query row against a key row: the inner product of their two projections. -/
def score (Wq Wk : Fin 160 → Fin 160 → EReal) (bq bk : Fin 160 → EReal) (x y : Fin 160 → EReal) : EReal :=
  ∑ e : Fin 160, lin x Wq bq e * lin y Wk bk e

/-- The maximum of a finite family, as the fold of `max` from `⊥`. -/
def rowMax {n : ℕ} (s : Fin n → EReal) : EReal := (Finset.univ : Finset (Fin n)).fold max ⊥ s

/-- Softmax attention of the query row `x` over the key rows `Y`, at column `d`, plus the residual `x d`. -/
def full {n : ℕ} (Wq Wk Wv : Fin 160 → Fin 160 → EReal) (bq bk bv : Fin 160 → EReal)
    (x : Fin 160 → EReal) (Y : Fin n → Fin 160 → EReal) (d : Fin 160) : EReal :=
  (∑ j : Fin n,
      Ideal.div (Ideal.exp (score Wq Wk bq bk x (Y j) - rowMax fun j' => score Wq Wk bq bk x (Y j')))
          (∑ j'' : Fin n, Ideal.exp (score Wq Wk bq bk x (Y j'') - rowMax fun j' => score Wq Wk bq bk x (Y j')))
        * lin (Y j) Wv bv d)
    + x d

/-- The running maximum after a tile with scores `s`. -/
def stepM {n : ℕ} (m : EReal) (s : Fin n → EReal) : EReal := max m (rowMax s)

/-- The running normaliser after a tile with scores `s`. -/
def stepL {n : ℕ} (m l : EReal) (s : Fin n → EReal) : EReal :=
  Ideal.exp (m - stepM m s) * l + ∑ j : Fin n, Ideal.exp (s j - stepM m s)

/-- The running accumulator (one column) after a tile with scores `s` and that column's values `v`. -/
def stepA {n : ℕ} (m acc : EReal) (s v : Fin n → EReal) : EReal :=
  Ideal.exp (m - stepM m s) * acc + ∑ j : Fin n, Ideal.exp (s j - stepM m s) * v j

/-- The same attention with the key rows taken in two tiles `Y0`, `Y1`, by a running maximum, normaliser and
    accumulator started at `⊥, 0, 0`. -/
def online {n : ℕ} (Wq Wk Wv : Fin 160 → Fin 160 → EReal) (bq bk bv : Fin 160 → EReal)
    (x : Fin 160 → EReal) (Y0 Y1 : Fin n → Fin 160 → EReal) (d : Fin 160) : EReal :=
  Ideal.div
      (stepA (stepM ⊥ fun j => score Wq Wk bq bk x (Y0 j))
        (stepA ⊥ 0 (fun j => score Wq Wk bq bk x (Y0 j)) fun j => lin (Y0 j) Wv bv d)
        (fun j => score Wq Wk bq bk x (Y1 j)) fun j => lin (Y1 j) Wv bv d)
      (stepL (stepM ⊥ fun j => score Wq Wk bq bk x (Y0 j))
        (stepL ⊥ 0 fun j => score Wq Wk bq bk x (Y0 j))
        fun j => score Wq Wk bq bk x (Y1 j))
    + x d

/-- Key row `j` of the first tile of 1024 among 2048. -/
def lo (j : Fin 1024) : Fin 2048 := ⟨j.val, by omega⟩
/-- Key row `j` of the second tile of 1024 among 2048. -/
def hi (j : Fin 1024) : Fin 2048 := ⟨1024 + j.val, by omega⟩

/-! ## The whole array -/

open Idealize.ShloMosaic.ValueIdx

/-- The attention of every query row of every batch as ONE function of the eight argument arrays
    (`x0` the queries' input `[32, 2048, 160]`, `x1` the keys' and values' input, `x2, x3` / `x4, x5` / `x6, x7`
    the weight `[160, 160]` and bias `[160]` of the query / key / value layer): at `(b, i, d)` it is `full` of row
    `i` of batch `b` of `x0` over the 2048 rows of batch `b` of `x1`, at column `d`. -/
def G (x0 x1 : (⟨3, ![32, 2048, 160]⟩ : Shape).Idx → EReal) (x2 : (⟨2, ![160, 160]⟩ : Shape).Idx → EReal)
    (x3 : (⟨1, ![160]⟩ : Shape).Idx → EReal) (x4 : (⟨2, ![160, 160]⟩ : Shape).Idx → EReal)
    (x5 : (⟨1, ![160]⟩ : Shape).Idx → EReal) (x6 : (⟨2, ![160, 160]⟩ : Shape).Idx → EReal)
    (x7 : (⟨1, ![160]⟩ : Shape).Idx → EReal) : (⟨3, ![32, 2048, 160]⟩ : Shape).Idx → EReal :=
  fun i => full (fun e d => x2 (ix2 e d)) (fun e d => x4 (ix2 e d)) (fun e d => x6 (ix2 e d))
    (fun e => x3 (ix1 e)) (fun e => x5 (ix1 e)) (fun e => x7 (ix1 e))
    (fun d => x0 (ix3 (i 0) (i 1) d)) (fun j d => x1 (ix3 (i 0) j d)) (i 2)

/-- Every entry of the eight argument arrays is a real number. -/
def AllReal (x0 x1 : (⟨3, ![32, 2048, 160]⟩ : Shape).Idx → EReal) (x2 : (⟨2, ![160, 160]⟩ : Shape).Idx → EReal)
    (x3 : (⟨1, ![160]⟩ : Shape).Idx → EReal) (x4 : (⟨2, ![160, 160]⟩ : Shape).Idx → EReal)
    (x5 : (⟨1, ![160]⟩ : Shape).Idx → EReal) (x6 : (⟨2, ![160, 160]⟩ : Shape).Idx → EReal)
    (x7 : (⟨1, ![160]⟩ : Shape).Idx → EReal) : Prop :=
  (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal))
    ∧ (∀ i, ∃ r : ℝ, x6 i = (r : EReal)) ∧ (∀ i, ∃ r : ℝ, x7 i = (r : EReal))

end Cert.Attention

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.TileAt.lean ====
/-
  The attention kernel's arithmetic for one query tile and its two key tiles, read entry by entry at the ideal values.

  Every pure term the body computes is read at an index. A linear layer applied to a tile of rows is, entry by
  entry, `lin` of the row. Entry `(i, j)` of the score tile is the inner product of the projected query row `i` with
  the key layer of key row `j`. The row maximum is the fold of `max` from `⊥` over the row and the row sum is the
  plain sum over it, so the new maximum, the rescaled normaliser and the rescaled accumulator are `stepM`, `stepL`
  and `stepA` of the entries of the incoming state. Composed as the body composes them (the first key tile from the
  reset state `(⊥, 0, 0)`, the second from what the first left, then the division and the residual) the written
  block is the specification's `online`.

  A change of float format is the identity at the ideal values, and each of the three products is the plain
  contraction `∑ k, l (i, k) * r (k, j)`. The weights arrive already transposed, so the specification's weight, indexed
  `[out, in]`, is the loaded array read at `(in, out)`.
-/
import proofs.«159856_j83305185673744_2_alg».proof.Proof.Tile
import proofs.«159856_j83305185673744_2_alg».proof.Proof.Attention
import proofs.«159856_j83305185673744_2_alg».proof.Proof.LibKeepdims
import proofs.«159856_j83305185673744_2_alg».proof.Proof.LibMatmul
import Idealize.ShloMosaic.Lib.ValueIdx
import Idealize.ShloMosaic.Lib.Pipeline.Value
import Idealize.ShloMosaic.Lib.ValueLayout
import Idealize.ShloMosaic.PureOps.Ideal.Laws

open scoped BigOperators
noncomputable section
namespace Cert.KernelIdeal.TileAt
open Cert.KernelIdeal Cert.KernelIdeal.Gen Idealize.ShloMosaic Idealize.ShloMosaic.ValueIdx

/-! ## The three products are plain products -/

theorem dotProj : dot_S1024x160_S160x160_S1024x160_1_0_0_1_n_n = DotDims.plain 1024 160 160 := rfl
theorem dotScore : dot_S1024x160_S160x1024_S1024x1024_1_0_0_1_n_n = DotDims.plain 1024 160 1024 := rfl
theorem dotAcc : dot_S1024x1024_S1024x160_S1024x160_1_0_0_1_n_n = DotDims.plain 1024 1024 160 := rfl

/-! ## The two row reductions -/

/-- The word of minus infinity denotes the bottom element. -/
theorem negInf : (FloatOps.ofBits (F := Ideal) .f32 0xFF800000#32 : Ideal .f32) = (⊥ : EReal) := by
  show Ideal.ofBits .f32 0xFF800000#32 = ⊥
  simp [Ideal.ofBits, Ideal.ieee]

/-- The sum over the second axis, at row `i`, is the sum of that row. -/
theorem rowSum_apply (v : FVec Ideal S1024x1024 .f32) (i : Fin 1024) :
    multiReduction .add [1] S1024 v 0x00000000#32 reduces_S1024x1024_S1024 (.inl rfl) rfl (ix1 i)
      = ∑ j : Fin 1024, v (ix2 i j) := by
  refine (Ideal.multiReduction_add_single v 0x00000000#32 reduces_S1024x1024_S1024 (.inl rfl) rfl (ix1 i)).trans ?_
  refine Finset.sum_congr rfl fun j _ => congrArg v ?_
  funext a
  match a with
  | ⟨0, _⟩ => rfl
  | ⟨1, _⟩ => rfl

/-- The maximum over the second axis, at row `i`, is the fold of `max` from `⊥` over that row. -/
theorem rowMax_apply (v : FVec Ideal S1024x1024 .f32) (i : Fin 1024) :
    multiReduction .maximumf [1] S1024 v 0xFF800000#32 reduces_S1024x1024_S1024 (.inl rfl) rfl (ix1 i)
      = Cert.Attention.rowMax fun j : Fin 1024 => v (ix2 i j) := by
  refine (Ideal.multiReduction_maximumf_single v 0xFF800000#32 reduces_S1024x1024_S1024 (.inl rfl) rfl (ix1 i)).trans ?_
  have e : (v ∘ (reduces_S1024x1024_S1024).lift (ix1 i)) = fun j : Fin 1024 => v (ix2 i j) := by
    funext j
    refine congrArg v ?_
    funext a
    match a with
    | ⟨0, _⟩ => rfl
    | ⟨1, _⟩ => rfl
  unfold Cert.Attention.rowMax
  rw [negInf]
  exact congrArg (fun f => (Finset.univ : Finset (Fin 1024)).fold max ⊥ f) e

/-! ## A linear layer applied to a tile of rows -/

/-- Row `j` of a `[1, 1024, 160]` block, as the left operand of a product. -/
theorem rows_apply (x : Vec Ideal S1x1024x160 .f32) (u : Fin 1) (j : Fin 1024) (d' : Fin 160) :
    k0_pay9 (F := Ideal) x (ix2 j d') = x (ix3 u j d') := by
  obtain rfl : u = 0 := Subsingleton.elim _ _
  unfold k0_pay9
  rw [truncf_apply, shapeCast_1ab_ab_apply]

/-- A tile of rows `a` times the transposed weight `w`, plus the bias `b` along every row: entry `(j, e)` is the linear
    layer of row `j` at output `e`. -/
theorem layer_apply (a : FVec Ideal S1024x160 .bf16) (w : Vec Ideal S160x160 .f32) (b : Vec Ideal S160 .f32)
    (j : Fin 1024) (e : Fin 160) :
    addf (matmul dot_S1024x160_S160x160_S1024x160_1_0_0_1_n_n none a
          (truncf .bf16 (shapeCast S160x160 w shapeCasts_S160x160_S160x160) bitsLt_bf16_f32)
          (constant S1024x160 .f32 0x00000000#32))
        (broadcastTo S1024x160 (shapeCast S1x160 b shapeCasts_S160_S1x160) broadcasts_S1x160_S1024x160) (ix2 j e)
      = Cert.Attention.lin (fun d' => a (ix2 j d')) (fun e d' => w (ix2 d' e)) (fun e => b (ix1 e)) e := by
  rw [addf_apply, dotProj, Cert.MatOps.matmul_plain_zero_apply, broadcastTo_1b_ab_apply, shapeCast_a_1a_apply]
  unfold Cert.Attention.lin
  refine congrArg (· + b (ix1 e)) (Finset.sum_congr rfl fun k _ => ?_)
  rw [truncf_apply, shapeCast_self]

/-- The projected query tile: entry `(i, e)` is the query layer of row `i` of the block. -/
theorem pay5_apply (x : Vec Ideal S1x1024x160 .f32) (w : Vec Ideal S160x160 .f32) (b : Vec Ideal S160 .f32)
    (u : Fin 1) (i : Fin 1024) (e : Fin 160) :
    k0_pay5 (F := Ideal) x w b (ix2 i e)
      = Cert.Attention.lin (fun d' => x (ix3 u i d')) (fun e d' => w (ix2 d' e)) (fun e => b (ix1 e)) e := by
  unfold k0_pay5
  rw [shapeCast_self]
  refine (layer_apply _ w b i e).trans ?_
  exact congrArg (fun r => Cert.Attention.lin r (fun e d' => w (ix2 d' e)) (fun e => b (ix1 e)) e)
    (funext fun d' => rows_apply x u i d')

/-- The value tile: entry `(j, d)` is the value layer of key row `j`. -/
theorem pay10_apply (x : Vec Ideal S1x1024x160 .f32) (w : Vec Ideal S160x160 .f32) (b : Vec Ideal S160 .f32)
    (u : Fin 1) (j : Fin 1024) (d : Fin 160) :
    k0_pay10 (F := Ideal) x w b (ix2 j d)
      = Cert.Attention.lin (fun d' => x (ix3 u j d')) (fun e d' => w (ix2 d' e)) (fun e => b (ix1 e)) d := by
  unfold k0_pay10
  rw [truncf_apply]
  refine (layer_apply _ w b j d).trans ?_
  exact congrArg (fun r => Cert.Attention.lin r (fun e d' => w (ix2 d' e)) (fun e => b (ix1 e)) d)
    (funext fun d' => rows_apply x u j d')

/-- The score tile: entry `(i, j)` is the inner product of query row `i` (whose entries are `Q`) with the key layer of
    key row `j`. -/
theorem pay11_apply (x : Vec Ideal S1x1024x160 .f32) (w : Vec Ideal S160x160 .f32) (b : Vec Ideal S160 .f32)
    (q : Vec Ideal S1024x160 .f32) (u : Fin 1) (i j : Fin 1024) (Q : Fin 160 → EReal) (hq : ∀ e, q (ix2 i e) = Q e) :
    k0_pay11 (F := Ideal) x w b q (ix2 i j)
      = ∑ e : Fin 160, Q e * Cert.Attention.lin (fun d' => x (ix3 u j d')) (fun e d' => w (ix2 d' e)) (fun e => b (ix1 e)) e := by
  unfold k0_pay11
  rw [dotScore, Cert.MatOps.matmul_plain_zero_apply]
  refine Finset.sum_congr rfl fun e _ => ?_
  rw [truncf_apply, hq e, Cert.MatOps.transpose10_apply, truncf_apply]
  refine congrArg (Q e * ·) ?_
  refine (layer_apply _ w b j e).trans ?_
  exact congrArg (fun r => Cert.Attention.lin r (fun e d' => w (ix2 d' e)) (fun e => b (ix1 e)) e)
    (funext fun d' => rows_apply x u j d')

/-! ## The running maximum and the two exponentials of a tile

  In what follows `Q` stands for the entries of query row `i`, and the score of that row against key row `j` is
  `∑ e, Q e * (key layer of row j) e`. -/

/-- The new running maximum of row `i`: the old one against the largest score of the tile. -/
theorem pay12_apply (x : Vec Ideal S1x1024x160 .f32) (w : Vec Ideal S160x160 .f32) (b : Vec Ideal S160 .f32)
    (q : Vec Ideal S1024x160 .f32) (m : Vec Ideal S1024x1 .f32) (u u' : Fin 1) (i : Fin 1024)
    (Q : Fin 160 → EReal) (hq : ∀ e, q (ix2 i e) = Q e) :
    k0_pay12 (F := Ideal) x w b q m (ix2 i u')
      = Cert.Attention.stepM (m (ix2 i u')) (fun j => ∑ e : Fin 160,
          Q e * Cert.Attention.lin (fun d' => x (ix3 u j d')) (fun e d' => w (ix2 d' e)) (fun e => b (ix1 e)) e) := by
  unfold k0_pay12
  rw [maximumf_apply, Keepdims.shapeCast_a_a1_apply, rowMax_apply]
  unfold Cert.Attention.stepM
  exact congrArg (fun s => max (m (ix2 i u')) (Cert.Attention.rowMax s))
    (funext fun j => pay11_apply x w b q u i j Q hq)

/-- The factor that rescales the old state of row `i`: `exp (old maximum - new maximum)`. -/
theorem pay13_apply (x : Vec Ideal S1x1024x160 .f32) (w : Vec Ideal S160x160 .f32) (b : Vec Ideal S160 .f32)
    (q : Vec Ideal S1024x160 .f32) (m : Vec Ideal S1024x1 .f32) (u u' : Fin 1) (i : Fin 1024)
    (Q : Fin 160 → EReal) (hq : ∀ e, q (ix2 i e) = Q e) :
    k0_pay13 (F := Ideal) x w b q m (ix2 i u')
      = Ideal.exp (m (ix2 i u') - Cert.Attention.stepM (m (ix2 i u')) (fun j => ∑ e : Fin 160,
          Q e * Cert.Attention.lin (fun d' => x (ix3 u j d')) (fun e d' => w (ix2 d' e)) (fun e => b (ix1 e)) e)) := by
  unfold k0_pay13
  show Ideal.exp (m (ix2 i u') - k0_pay12 x w b q m (ix2 i u')) = _
  rw [pay12_apply x w b q m u u' i Q hq]

/-- The weight of key row `j` for query row `i`: `exp (score - new maximum)`. -/
theorem pay14_apply (x : Vec Ideal S1x1024x160 .f32) (w : Vec Ideal S160x160 .f32) (b : Vec Ideal S160 .f32)
    (q : Vec Ideal S1024x160 .f32) (m : Vec Ideal S1024x1 .f32) (u u' : Fin 1) (i j : Fin 1024)
    (Q : Fin 160 → EReal) (hq : ∀ e, q (ix2 i e) = Q e) :
    k0_pay14 (F := Ideal) x w b q m (ix2 i j)
      = Ideal.exp ((∑ e : Fin 160,
            Q e * Cert.Attention.lin (fun d' => x (ix3 u j d')) (fun e d' => w (ix2 d' e)) (fun e => b (ix1 e)) e)
          - Cert.Attention.stepM (m (ix2 i u')) (fun j => ∑ e : Fin 160,
            Q e * Cert.Attention.lin (fun d' => x (ix3 u j d')) (fun e d' => w (ix2 d' e)) (fun e => b (ix1 e)) e)) := by
  unfold k0_pay14
  show Ideal.exp (k0_pay11 x w b q (ix2 i j)
      - broadcastTo S1024x1024 (k0_pay12 x w b q m) broadcasts_S1024x1_S1024x1024 (ix2 i j)) = _
  rw [Keepdims.broadcastTo_a1_ab_apply _ _ i j u', pay12_apply x w b q m u u' i Q hq, pay11_apply x w b q u i j Q hq]

/-! ## The normaliser, the accumulator, the write-out and the reset state -/

/-- The new normaliser of row `i`: the rescaled old one plus the row sum of the weights. -/
theorem pay1_apply (a : FVec Ideal S1024x1 .f32) (p : FVec Ideal S1024x1024 .f32) (l : Vec Ideal S1024x1 .f32)
    (i : Fin 1024) (u' : Fin 1) :
    k0_pay1 (F := Ideal) a p l (ix2 i u') = a (ix2 i u') * l (ix2 i u') + ∑ j : Fin 1024, p (ix2 i j) := by
  unfold k0_pay1
  rw [shapeCast_self, addf_apply, mulf_apply, Keepdims.shapeCast_a_a1_apply, rowSum_apply]

/-- The new accumulator at `(i, d)`: the rescaled old one plus the weights of row `i` against column `d` of the values. -/
theorem pay2_apply (v : FVec Ideal S1024x160 .bf16) (a : FVec Ideal S1024x1 .f32) (p : FVec Ideal S1024x1024 .f32)
    (acc : Vec Ideal S1024x160 .f32) (i : Fin 1024) (d : Fin 160) (u' : Fin 1) :
    k0_pay2 (F := Ideal) v a p acc (ix2 i d)
      = a (ix2 i u') * acc (ix2 i d) + ∑ j : Fin 1024, p (ix2 i j) * v (ix2 j d) := by
  unfold k0_pay2
  rw [shapeCast_self, addf_apply, mulf_apply, Keepdims.broadcastTo_a1_ab_apply _ _ i d u', dotAcc,
    Cert.MatOps.matmul_plain_zero_apply]
  exact congrArg (a (ix2 i u') * acc (ix2 i d) + ·) (Finset.sum_congr rfl fun k _ => rfl)

/-- Storing the maximum changes nothing. -/
theorem pay3_eq (m : FVec Ideal S1024x1 .f32) : k0_pay3 (F := Ideal) m = m := by
  unfold k0_pay3
  exact shapeCast_self _ _

/-- The write-out at `(i, d)`: the accumulator over the normaliser of row `i`, plus the query block's entry. -/
theorem pay4_apply (acc : Vec Ideal S1024x160 .f32) (l : Vec Ideal S1024x1 .f32) (x : Vec Ideal S1x1024x160 .f32)
    (u u' : Fin 1) (i : Fin 1024) (d : Fin 160) :
    k0_pay4 (F := Ideal) acc l x (ix3 u i d) = Ideal.div (acc (ix2 i d)) (l (ix2 i u')) + x (ix3 u i d) := by
  obtain rfl : u = 0 := Subsingleton.elim _ _
  unfold k0_pay4
  rw [shapeCast_ab_1ab_apply, addf_apply, divf_apply, Keepdims.broadcastTo_a1_ab_apply _ _ i d u',
    shapeCast_1ab_ab_apply]

/-- The maximum is reset to minus infinity. -/
theorem pay6_apply (i : Fin 1024) (u' : Fin 1) : k0_pay6 (F := Ideal) (ix2 i u') = (⊥ : EReal) := by
  unfold k0_pay6
  rw [shapeCast_self, broadcast_apply]
  exact negInf

/-- The normaliser is reset to zero. -/
theorem pay7_apply (i : Fin 1024) (u' : Fin 1) : k0_pay7 (F := Ideal) (ix2 i u') = (0 : EReal) := by
  unfold k0_pay7
  rw [shapeCast_self, broadcast_apply]
  exact Ideal.ofBits_zero_f32

/-- The accumulator is reset to zero. -/
theorem pay8_apply (i : Fin 1024) (d : Fin 160) : k0_pay8 (F := Ideal) (ix2 i d) = (0 : EReal) := by
  unfold k0_pay8
  rw [shapeCast_self, broadcast_apply]
  exact Ideal.ofBits_zero_f32

/-! ## One key tile moves the running state as the specification's step functions do -/

theorem mB_apply (x1 : Vec Ideal S1x1024x160 .f32) (x4 : Vec Ideal S160x160 .f32) (x5 : Vec Ideal S160 .f32)
    (q : Vec Ideal S1024x160 .f32) (m : Vec Ideal S1024x1 .f32) (u u' : Fin 1) (i : Fin 1024)
    (Q : Fin 160 → EReal) (hq : ∀ e, q (ix2 i e) = Q e) :
    Tile.mB (F := Ideal) x1 x4 x5 q m (ix2 i u')
      = Cert.Attention.stepM (m (ix2 i u')) (fun j => ∑ e : Fin 160,
          Q e * Cert.Attention.lin (fun d' => x1 (ix3 u j d')) (fun e d' => x4 (ix2 d' e)) (fun e => x5 (ix1 e)) e) := by
  unfold Tile.mB
  rw [pay3_eq]
  exact pay12_apply x1 x4 x5 q m u u' i Q hq

theorem lB_apply (x1 : Vec Ideal S1x1024x160 .f32) (x4 : Vec Ideal S160x160 .f32) (x5 : Vec Ideal S160 .f32)
    (q : Vec Ideal S1024x160 .f32) (m l : Vec Ideal S1024x1 .f32) (u u' : Fin 1) (i : Fin 1024)
    (Q : Fin 160 → EReal) (hq : ∀ e, q (ix2 i e) = Q e) :
    Tile.lB (F := Ideal) x1 x4 x5 q m l (ix2 i u')
      = Cert.Attention.stepL (m (ix2 i u')) (l (ix2 i u')) (fun j => ∑ e : Fin 160,
          Q e * Cert.Attention.lin (fun d' => x1 (ix3 u j d')) (fun e d' => x4 (ix2 d' e)) (fun e => x5 (ix1 e)) e) := by
  unfold Tile.lB
  rw [pay1_apply, pay13_apply x1 x4 x5 q m u u' i Q hq]
  unfold Cert.Attention.stepL
  exact congrArg (_ + ·) (Finset.sum_congr rfl fun j _ => pay14_apply x1 x4 x5 q m u u' i j Q hq)

theorem accB_apply (x1 : Vec Ideal S1x1024x160 .f32) (x4 : Vec Ideal S160x160 .f32) (x5 : Vec Ideal S160 .f32)
    (x6 : Vec Ideal S160x160 .f32) (x7 : Vec Ideal S160 .f32)
    (q : Vec Ideal S1024x160 .f32) (m : Vec Ideal S1024x1 .f32) (acc : Vec Ideal S1024x160 .f32)
    (u u' : Fin 1) (i : Fin 1024) (Q : Fin 160 → EReal) (hq : ∀ e, q (ix2 i e) = Q e) (d : Fin 160) :
    Tile.accB (F := Ideal) x1 x4 x5 x6 x7 q m acc (ix2 i d)
      = Cert.Attention.stepA (m (ix2 i u')) (acc (ix2 i d))
          (fun j => ∑ e : Fin 160,
            Q e * Cert.Attention.lin (fun d' => x1 (ix3 u j d')) (fun e d' => x4 (ix2 d' e)) (fun e => x5 (ix1 e)) e)
          (fun j => Cert.Attention.lin (fun d' => x1 (ix3 u j d')) (fun e d' => x6 (ix2 d' e)) (fun e => x7 (ix1 e)) d) := by
  unfold Tile.accB
  rw [pay2_apply _ _ _ _ i d u', pay13_apply x1 x4 x5 q m u u' i Q hq]
  unfold Cert.Attention.stepA
  refine congrArg (_ + ·) (Finset.sum_congr rfl fun j _ => ?_)
  rw [pay14_apply x1 x4 x5 q m u u' i j Q hq, pay10_apply x1 x6 x7 u j d]

theorem outB_apply (x0 x1 : Vec Ideal S1x1024x160 .f32) (x4 : Vec Ideal S160x160 .f32) (x5 : Vec Ideal S160 .f32)
    (x6 : Vec Ideal S160x160 .f32) (x7 : Vec Ideal S160 .f32)
    (q : Vec Ideal S1024x160 .f32) (m l : Vec Ideal S1024x1 .f32) (acc : Vec Ideal S1024x160 .f32)
    (u u' : Fin 1) (i : Fin 1024) (d : Fin 160) (Q : Fin 160 → EReal) (hq : ∀ e, q (ix2 i e) = Q e) :
    Tile.outB (F := Ideal) x0 x1 x4 x5 x6 x7 q m l acc (ix3 u i d)
      = Ideal.div
          (Cert.Attention.stepA (m (ix2 i u')) (acc (ix2 i d))
            (fun j => ∑ e : Fin 160,
              Q e * Cert.Attention.lin (fun d' => x1 (ix3 u j d')) (fun e d' => x4 (ix2 d' e)) (fun e => x5 (ix1 e)) e)
            (fun j => Cert.Attention.lin (fun d' => x1 (ix3 u j d')) (fun e d' => x6 (ix2 d' e)) (fun e => x7 (ix1 e)) d))
          (Cert.Attention.stepL (m (ix2 i u')) (l (ix2 i u')) (fun j => ∑ e : Fin 160,
              Q e * Cert.Attention.lin (fun d' => x1 (ix3 u j d')) (fun e d' => x4 (ix2 d' e)) (fun e => x5 (ix1 e)) e))
        + x0 (ix3 u i d) := by
  unfold Tile.outB
  rw [pay4_apply _ _ _ u u' i d, accB_apply x1 x4 x5 x6 x7 q m acc u u' i Q hq d, lB_apply x1 x4 x5 q m l u u' i Q hq]

/-! ## A query tile after its two key tiles -/

/-- The block written for a query tile, at `(i, d)`, is the two-tile arrangement of softmax attention of query row `i`
    over the rows of the two key tiles, at column `d`: the first tile moves the reset state `(⊥, 0, 0)`, the second
    moves what the first left, and the write-out divides and adds the residual. -/
theorem tileOut_apply (x0 y0 y1 : Vec Ideal S1x1024x160 .f32) (x2 : Vec Ideal S160x160 .f32) (x3 : Vec Ideal S160 .f32)
    (x4 : Vec Ideal S160x160 .f32) (x5 : Vec Ideal S160 .f32) (x6 : Vec Ideal S160x160 .f32) (x7 : Vec Ideal S160 .f32)
    (u : Fin 1) (i : Fin 1024) (d : Fin 160) :
    Cert.KernelIdeal.Tile.tileOut (F := Ideal) x0 y0 y1 x2 x3 x4 x5 x6 x7 (ix3 u i d)
      = Cert.Attention.online (fun e d' => x2 (ix2 d' e)) (fun e d' => x4 (ix2 d' e)) (fun e d' => x6 (ix2 d' e))
          (fun e => x3 (ix1 e)) (fun e => x5 (ix1 e)) (fun e => x7 (ix1 e))
          (fun d' => x0 (ix3 u i d')) (fun j d' => y0 (ix3 u j d')) (fun j d' => y1 (ix3 u j d')) d := by
  have hq : ∀ e, Tile.q0 (F := Ideal) x0 x2 x3 (ix2 i e)
      = Cert.Attention.lin (fun d' => x0 (ix3 u i d')) (fun e d' => x2 (ix2 d' e)) (fun e => x3 (ix1 e)) e :=
    fun e => pay5_apply x0 x2 x3 u i e
  unfold Tile.tileOut
  rw [outB_apply x0 y1 x4 x5 x6 x7 _ _ _ _ u u i d _ hq,
    mB_apply y0 x4 x5 _ _ u u i _ hq, lB_apply y0 x4 x5 _ _ _ u u i _ hq,
    accB_apply y0 x4 x5 x6 x7 _ _ _ u u i _ hq d, pay6_apply, pay7_apply, pay8_apply]
  rfl

end Cert.KernelIdeal.TileAt

end
-- ==== Proof.AttentionLaw.lean ====
/-
  The two arrangements of softmax attention in the specification agree when every input is a real number.

  With every input real, every projection and every score is real. Write `s j` for the 2048 scores and `v j` for the
  value column. The maximum of a nonempty finite family of reals is one of its members, hence real, and the maximum of
  the whole family is the larger of the maxima of its two halves, `M = max m₀ m₁`.

  First tile, from `(⊥, 0, 0)`: the running maximum becomes `m₀`; the old normaliser and accumulator are `0`, so whatever
  the rescaling factor is, its product with them is `0`, and the tile leaves `l₁ = ∑ exp (s j - m₀)` and
  `a₁ = ∑ exp (s j - m₀) * v j` over the first half.

  Second tile: the rescaling factor is `exp (m₀ - M)`, and `exp (m₀ - M) * exp (s j - m₀) = exp (s j - M)`, so the tile
  leaves `l₂ = ∑ exp (s j - M)` and `a₂ = ∑ exp (s j - M) * v j` over ALL 2048 rows. `l₂` is a sum of positive reals,
  so dividing by it is multiplying by its reciprocal, and `a₂ * (1 / l₂) = ∑ (exp (s j - M) * (1 / l₂)) * v j`, which is
  the full softmax. The residual is the same term on both sides.
-/
import proofs.«159856_j83305185673744_2_alg».proof.Proof.Attention

noncomputable section

namespace Cert.Attention

open Idealize.ShloMosaic

namespace Law

/-! ## Real numbers inside the extended reals -/

/-- A finite sum of real numbers, taken in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem real_add {a b : EReal} (ha : ∃ r : ℝ, a = (r : EReal)) (hb : ∃ r : ℝ, b = (r : EReal)) :
    ∃ r : ℝ, a + b = (r : EReal) := by
  obtain ⟨r, rfl⟩ := ha
  obtain ⟨t, rfl⟩ := hb
  exact ⟨r + t, (EReal.coe_add r t).symm⟩

theorem real_mul {a b : EReal} (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

theorem real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [← coe_sum]; exact Finset.sum_congr rfl fun i _ => hg i⟩

/-- A linear layer with real weights and bias sends a real row to real entries. -/
theorem real_lin {a : Fin 160 → EReal} {W : Fin 160 → Fin 160 → EReal} {bias : Fin 160 → EReal}
    (ha : ∀ d, ∃ r : ℝ, a d = (r : EReal)) (hW : ∀ e d, ∃ r : ℝ, W e d = (r : EReal))
    (hb : ∀ e, ∃ r : ℝ, bias e = (r : EReal)) (e : Fin 160) : ∃ r : ℝ, lin a W bias e = (r : EReal) :=
  real_add (real_sum _ _ fun d => real_mul (ha d) (hW e d)) (hb e)

/-- The score of two real rows through real layers is real. -/
theorem real_score {Wq Wk : Fin 160 → Fin 160 → EReal} {bq bk : Fin 160 → EReal} {x y : Fin 160 → EReal}
    (hWq : ∀ e d, ∃ r : ℝ, Wq e d = (r : EReal)) (hWk : ∀ e d, ∃ r : ℝ, Wk e d = (r : EReal))
    (hbq : ∀ e, ∃ r : ℝ, bq e = (r : EReal)) (hbk : ∀ e, ∃ r : ℝ, bk e = (r : EReal))
    (hx : ∀ d, ∃ r : ℝ, x d = (r : EReal)) (hy : ∀ d, ∃ r : ℝ, y d = (r : EReal)) :
    ∃ r : ℝ, score Wq Wk bq bk x y = (r : EReal) :=
  real_sum _ _ fun e => real_mul (real_lin hx hWq hbq e) (real_lin hy hWk hbk e)

/-- The larger of two reals, taken in the extended reals. -/
theorem coe_max (a b : ℝ) : ((max a b : ℝ) : EReal) = max (a : EReal) (b : EReal) :=
  EReal.coe_strictMono.monotone.map_max

/-- The exponential of a difference of reals. -/
theorem exp_sub_coe (a b : ℝ) : Ideal.exp ((a : EReal) - (b : EReal)) = ((Real.exp (a - b) : ℝ) : EReal) := by
  rw [← EReal.coe_sub, Ideal.exp_coe]

/-! ## The maximum of a family -/

/-- The fold of `max` from `⊥` is the supremum of the family. -/
theorem rowMax_eq_sup {n : ℕ} (s : Fin n → EReal) : rowMax s = (Finset.univ : Finset (Fin n)).sup s := rfl

/-- The maximum of a nonempty family of reals is a real (it is one of them). -/
theorem rowMax_real {n : ℕ} (hn : 0 < n) (f : Fin n → ℝ) :
    ∃ m : ℝ, rowMax (fun j => ((f j : ℝ) : EReal)) = (m : EReal) := by
  obtain ⟨i, -, hi⟩ := Finset.exists_mem_eq_sup (Finset.univ : Finset (Fin n)) ⟨⟨0, hn⟩, Finset.mem_univ _⟩
    (fun j => ((f j : ℝ) : EReal))
  exact ⟨f i, (rowMax_eq_sup _).trans hi⟩

/-- The maximum over 2048 rows is the larger of the maxima over the two halves. -/
theorem rowMax_split (s : Fin 2048 → EReal) :
    rowMax s = max (rowMax fun j => s (lo j)) (rowMax fun j => s (hi j)) := by
  simp only [rowMax_eq_sup]
  apply le_antisymm
  · apply Finset.sup_le
    intro j _
    by_cases h : j.val < 1024
    · have e : j = lo ⟨j.val, h⟩ := Fin.ext rfl
      rw [e]
      exact le_max_of_le_left (Finset.le_sup (f := fun j => s (lo j)) (Finset.mem_univ _))
    · have e : j = hi ⟨j.val - 1024, by omega⟩ := Fin.ext (by show j.val = 1024 + (j.val - 1024); omega)
      rw [e]
      exact le_max_of_le_right (Finset.le_sup (f := fun j => s (hi j)) (Finset.mem_univ _))
  · apply max_le
    · exact Finset.sup_le fun j _ => Finset.le_sup (f := s) (Finset.mem_univ _)
    · exact Finset.sup_le fun j _ => Finset.le_sup (f := s) (Finset.mem_univ _)

/-- A sum over 2048 rows is the sum over the first half plus the sum over the second half. -/
theorem sum_split {α : Type*} [AddCommMonoid α] (f : Fin 2048 → α) :
    ∑ j, f j = (∑ j : Fin 1024, f (lo j)) + ∑ j : Fin 1024, f (hi j) :=
  Fin.sum_univ_add (a := 1024) (b := 1024) f

/-! ## One tile -/

/-- From the running maximum `⊥`, a tile's maximum becomes the running maximum. -/
theorem stepM_bot {n : ℕ} (s : Fin n → EReal) : stepM ⊥ s = rowMax s := by
  unfold stepM
  exact max_eq_right bot_le

/-- From the normaliser `0`, the rescaled old part vanishes whatever the factor is. -/
theorem stepL_bot_zero {n : ℕ} (s : Fin n → EReal) :
    stepL ⊥ 0 s = ∑ j : Fin n, Ideal.exp (s j - rowMax s) := by
  unfold stepL
  rw [stepM_bot, mul_zero, zero_add]

theorem stepA_bot_zero {n : ℕ} (s v : Fin n → EReal) :
    stepA ⊥ 0 s v = ∑ j : Fin n, Ideal.exp (s j - rowMax s) * v j := by
  unfold stepA
  rw [stepM_bot, mul_zero, zero_add]

/-- The first tile on real scores whose maximum is `m`. -/
theorem firstL {n : ℕ} (s : Fin n → ℝ) (m : ℝ) (hm : rowMax (fun j => ((s j : ℝ) : EReal)) = (m : EReal)) :
    stepL ⊥ 0 (fun j => ((s j : ℝ) : EReal)) = ((∑ j, Real.exp (s j - m) : ℝ) : EReal) := by
  rw [stepL_bot_zero, hm, ← coe_sum]
  exact Finset.sum_congr rfl fun j _ => exp_sub_coe (s j) m

theorem firstA {n : ℕ} (s v : Fin n → ℝ) (m : ℝ) (hm : rowMax (fun j => ((s j : ℝ) : EReal)) = (m : EReal)) :
    stepA ⊥ 0 (fun j => ((s j : ℝ) : EReal)) (fun j => ((v j : ℝ) : EReal))
      = ((∑ j, Real.exp (s j - m) * v j : ℝ) : EReal) := by
  rw [stepA_bot_zero, hm, ← coe_sum]
  exact Finset.sum_congr rfl fun j _ => by rw [exp_sub_coe, ← EReal.coe_mul]

/-- A later tile on real scores, from a real running maximum `m` to the real running maximum `M`. -/
theorem nextL {n : ℕ} (s : Fin n → ℝ) (m M l : ℝ)
    (hM : stepM (m : EReal) (fun j => ((s j : ℝ) : EReal)) = (M : EReal)) :
    stepL (m : EReal) (l : EReal) (fun j => ((s j : ℝ) : EReal))
      = ((Real.exp (m - M) * l + ∑ j, Real.exp (s j - M) : ℝ) : EReal) := by
  unfold stepL
  rw [hM, exp_sub_coe, EReal.coe_add, EReal.coe_mul, ← coe_sum]
  exact congrArg (_ + ·) (Finset.sum_congr rfl fun j _ => exp_sub_coe (s j) M)

theorem nextA {n : ℕ} (s v : Fin n → ℝ) (m M a : ℝ)
    (hM : stepM (m : EReal) (fun j => ((s j : ℝ) : EReal)) = (M : EReal)) :
    stepA (m : EReal) (a : EReal) (fun j => ((s j : ℝ) : EReal)) (fun j => ((v j : ℝ) : EReal))
      = ((Real.exp (m - M) * a + ∑ j, Real.exp (s j - M) * v j : ℝ) : EReal) := by
  unfold stepA
  rw [hM, exp_sub_coe, EReal.coe_add, EReal.coe_mul, ← coe_sum]
  exact congrArg (_ + ·) (Finset.sum_congr rfl fun j _ => by rw [exp_sub_coe, ← EReal.coe_mul])

/-! ## The law on the reals -/

/-- Rescaling the first tile's sums by `exp (m - M)` re-bases them at `M`; the quotient is the softmax average. -/
theorem real_law {n : ℕ} (s0 s1 v0 v1 : Fin n → ℝ) (m M : ℝ) :
    (Real.exp (m - M) * (∑ j, Real.exp (s0 j - m) * v0 j) + ∑ j, Real.exp (s1 j - M) * v1 j)
        * (1 / (Real.exp (m - M) * (∑ j, Real.exp (s0 j - m)) + ∑ j, Real.exp (s1 j - M)))
      = (∑ j, Real.exp (s0 j - M) * (1 / ((∑ j, Real.exp (s0 j - M)) + ∑ j, Real.exp (s1 j - M))) * v0 j)
        + ∑ j, Real.exp (s1 j - M) * (1 / ((∑ j, Real.exp (s0 j - M)) + ∑ j, Real.exp (s1 j - M))) * v1 j := by
  have h : ∀ a : ℝ, Real.exp (m - M) * Real.exp (a - m) = Real.exp (a - M) := by
    intro a
    rw [← Real.exp_add]
    congr 1
    ring
  have hl : Real.exp (m - M) * (∑ j, Real.exp (s0 j - m)) = ∑ j, Real.exp (s0 j - M) := by
    rw [Finset.mul_sum]
    exact Finset.sum_congr rfl fun j _ => h (s0 j)
  have ha : Real.exp (m - M) * (∑ j, Real.exp (s0 j - m) * v0 j) = ∑ j, Real.exp (s0 j - M) * v0 j := by
    rw [Finset.mul_sum]
    exact Finset.sum_congr rfl fun j _ => by rw [← mul_assoc, h]
  rw [hl, ha, add_mul, Finset.sum_mul, Finset.sum_mul]
  congr 1 <;> exact Finset.sum_congr rfl fun j _ => by ring

/-- A sum of exponentials over a nonempty family is not zero. -/
theorem sum_exp_ne_zero {n : ℕ} (hn : 0 < n) (f : Fin n → ℝ) : (∑ j, Real.exp (f j)) ≠ 0 :=
  (Finset.sum_pos (fun j _ => Real.exp_pos (f j)) ⟨⟨0, hn⟩, Finset.mem_univ _⟩).ne'

/-! ## The two arrangements on real scores and values -/

/-- The full softmax average on real scores `s` and values `v` whose maximum is `M`. -/
theorem full_coe (s v : Fin 2048 → ℝ) (M : ℝ) (hM : rowMax (fun j => ((s j : ℝ) : EReal)) = (M : EReal)) :
    (∑ j : Fin 2048,
        Ideal.div (Ideal.exp (((s j : ℝ) : EReal) - rowMax fun j' => ((s j' : ℝ) : EReal)))
            (∑ j'' : Fin 2048, Ideal.exp (((s j'' : ℝ) : EReal) - rowMax fun j' => ((s j' : ℝ) : EReal)))
          * ((v j : ℝ) : EReal))
      = ((∑ j : Fin 2048, Real.exp (s j - M) * (1 / ∑ j'' : Fin 2048, Real.exp (s j'' - M)) * v j : ℝ) : EReal) := by
  have hL : (∑ j'' : Fin 2048, Ideal.exp (((s j'' : ℝ) : EReal) - (M : EReal)))
      = ((∑ j'' : Fin 2048, Real.exp (s j'' - M) : ℝ) : EReal) := by
    rw [← coe_sum]
    exact Finset.sum_congr rfl fun j _ => exp_sub_coe (s j) M
  have hne : (∑ j'' : Fin 2048, Real.exp (s j'' - M)) ≠ 0 := sum_exp_ne_zero (by norm_num) fun j'' => s j'' - M
  rw [hM, hL]
  refine Eq.trans ?_
    (coe_sum Finset.univ fun j => Real.exp (s j - M) * (1 / ∑ j'' : Fin 2048, Real.exp (s j'' - M)) * v j)
  refine Finset.sum_congr rfl fun j _ => ?_
  rw [Ideal.div_coe hne, exp_sub_coe, ← EReal.coe_mul, ← EReal.coe_mul]

/-- The online arrangement on real scores and values: the two tiles leave the softmax average based at the larger
    of the two tile maxima. -/
theorem online_coe {n : ℕ} (hn : 0 < n) (s0 s1 v0 v1 : Fin n → ℝ) (m0 m1 : ℝ)
    (h0 : rowMax (fun j => ((s0 j : ℝ) : EReal)) = (m0 : EReal))
    (h1 : rowMax (fun j => ((s1 j : ℝ) : EReal)) = (m1 : EReal)) :
    Ideal.div
        (stepA (stepM ⊥ fun j => ((s0 j : ℝ) : EReal))
          (stepA ⊥ 0 (fun j => ((s0 j : ℝ) : EReal)) fun j => ((v0 j : ℝ) : EReal))
          (fun j => ((s1 j : ℝ) : EReal)) fun j => ((v1 j : ℝ) : EReal))
        (stepL (stepM ⊥ fun j => ((s0 j : ℝ) : EReal))
          (stepL ⊥ 0 fun j => ((s0 j : ℝ) : EReal))
          fun j => ((s1 j : ℝ) : EReal))
      = (((∑ j, Real.exp (s0 j - max m0 m1)
              * (1 / ((∑ j, Real.exp (s0 j - max m0 m1)) + ∑ j, Real.exp (s1 j - max m0 m1))) * v0 j)
          + ∑ j, Real.exp (s1 j - max m0 m1)
              * (1 / ((∑ j, Real.exp (s0 j - max m0 m1)) + ∑ j, Real.exp (s1 j - max m0 m1))) * v1 j : ℝ) : EReal) := by
  have hM : stepM (m0 : EReal) (fun j => ((s1 j : ℝ) : EReal)) = ((max m0 m1 : ℝ) : EReal) := by
    unfold stepM
    rw [h1, coe_max]
  have hne : Real.exp (m0 - max m0 m1) * (∑ j, Real.exp (s0 j - m0)) + ∑ j, Real.exp (s1 j - max m0 m1) ≠ 0 := by
    have a : 0 ≤ Real.exp (m0 - max m0 m1) * ∑ j, Real.exp (s0 j - m0) :=
      mul_nonneg (Real.exp_pos _).le (Finset.sum_nonneg fun j _ => (Real.exp_pos _).le)
    have b : 0 < ∑ j, Real.exp (s1 j - max m0 m1) :=
      Finset.sum_pos (fun j _ => Real.exp_pos _) ⟨⟨0, hn⟩, Finset.mem_univ _⟩
    exact (add_pos_of_nonneg_of_pos a b).ne'
  rw [stepM_bot, h0, firstL s0 m0 h0, firstA s0 v0 m0 h0, nextL s1 m0 _ _ hM, nextA s1 v1 m0 _ _ hM,
    Ideal.div_coe hne, ← EReal.coe_mul, real_law]

end Law

/-- On real inputs, attention computed over two key tiles with a running maximum, normaliser and accumulator is the
    full softmax attention over all 2048 key rows. -/
theorem online_eq_full (Wq Wk Wv : Fin 160 → Fin 160 → EReal) (bq bk bv : Fin 160 → EReal)
    (x : Fin 160 → EReal) (Y : Fin 2048 → Fin 160 → EReal) (d : Fin 160)
    (hWq : ∀ e d', ∃ r : ℝ, Wq e d' = (r : EReal)) (hWk : ∀ e d', ∃ r : ℝ, Wk e d' = (r : EReal))
    (hWv : ∀ e d', ∃ r : ℝ, Wv e d' = (r : EReal))
    (hbq : ∀ e, ∃ r : ℝ, bq e = (r : EReal)) (hbk : ∀ e, ∃ r : ℝ, bk e = (r : EReal))
    (hbv : ∀ e, ∃ r : ℝ, bv e = (r : EReal))
    (hx : ∀ d', ∃ r : ℝ, x d' = (r : EReal)) (hY : ∀ j d', ∃ r : ℝ, Y j d' = (r : EReal)) :
    online Wq Wk Wv bq bk bv x (fun j => Y (lo j)) (fun j => Y (hi j)) d = full Wq Wk Wv bq bk bv x Y d := by
  -- every score and every value entry is real
  have hs : ∀ j, ∃ r : ℝ, score Wq Wk bq bk x (Y j) = (r : EReal) := fun j =>
    Law.real_score hWq hWk hbq hbk hx (hY j)
  have hv : ∀ j, ∃ r : ℝ, lin (Y j) Wv bv d = (r : EReal) := fun j => Law.real_lin (hY j) hWv hbv d
  choose s hs using hs
  choose v hv using hv
  -- the maxima of the two halves, and of the whole
  obtain ⟨m0, h0⟩ := Law.rowMax_real (n := 1024) (by norm_num) fun j => s (lo j)
  obtain ⟨m1, h1⟩ := Law.rowMax_real (n := 1024) (by norm_num) fun j => s (hi j)
  have hM : rowMax (fun j => ((s j : ℝ) : EReal)) = ((max m0 m1 : ℝ) : EReal) := by
    rw [Law.rowMax_split, h0, h1, Law.coe_max]
  -- both sides as real numbers
  have e1 := Law.sum_split fun j => Real.exp (s j - max m0 m1)
    * (1 / ∑ j'' : Fin 2048, Real.exp (s j'' - max m0 m1)) * v j
  have e2 := Law.sum_split fun j'' => Real.exp (s j'' - max m0 m1)
  unfold online full
  simp only [hs, hv]
  rw [Law.online_coe (by norm_num) (fun j => s (lo j)) (fun j => s (hi j)) (fun j => v (lo j)) (fun j => v (hi j))
    m0 m1 h0 h1, Law.full_coe s v _ hM, e1, e2]

end Cert.Attention

end
-- ==== Proof.Blocks.lean ====
/-
  The output array after the run is the attention of the argument arrays.

  A point that writes back is the last key tile of a query tile: its block is the body's two steps over the query tile
  and the batch's two key tiles (`State`), which at an index is the two-tile arrangement of the specification
  (`TileAt`) over the argument arrays' rows (`BlockAt`: the blocks the point and the point before it read are rows
  of the arguments, the query tile's and the weights' the same at both points), which on real inputs is the softmax
  over all 2048 keys (`AttentionLaw`). Those blocks tile the array (`Cover`).
-/
import proofs.«159856_j83305185673744_2_alg».proof.Proof.Gen.KernelIdeal.Value
import proofs.«159856_j83305185673744_2_alg».proof.Proof.State
import proofs.«159856_j83305185673744_2_alg».proof.Proof.BlockAt
import proofs.«159856_j83305185673744_2_alg».proof.Proof.Cover
import proofs.«159856_j83305185673744_2_alg».proof.Proof.TileAt
import proofs.«159856_j83305185673744_2_alg».proof.Proof.AttentionLaw

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The attention of the argument arrays as the run finds them. -/
abbrev GG (c : Dev nD) : S32x2048x160.Idx → EReal :=
  Cert.Attention.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- At a point that writes back, the block written is the block of the attention of the argument arrays. -/
theorem flushed_eq (c : Dev nD) (hreal : Cert.Attention.AllReal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (t : Fin cfg0.N) (hf : (cfg0.win 8).flush t = true) :
    (dats m 0 c).flushed 8 t = ((cfg0.win 8).blk t).view.read (Elt Ideal) (GG m c) := by
  have hN : cfg0.N = 128 := N_0
  have htl : t.val < 128 := hN ▸ t.isLt
  have h1 : t.val % 2 = 1 := (flush0_8 t).mp hf
  have h0 : ¬t.val % 2 = 0 := by omega
  have hp : t.val - 1 < cfg0.N := Nat.lt_of_le_of_lt (Nat.sub_le _ _) t.isLt
  have hp0 : (t.val - 1) % 2 = 0 := by omega
  have hp1 : ¬(t.val - 1) % 2 = 1 := by omega
  obtain ⟨r0, r1, r2, r3, r4, r5, r6, r7⟩ := hreal
  rw [State.flushed_odd m c t h0 h1, State.carried_q m c (t.val - 1) hp hp0 hp1, State.carried_m m c (t.val - 1) hp hp0 hp1,
    State.carried_l m c (t.val - 1) hp hp0 hp1, State.carried_acc m c (t.val - 1) hp hp0 hp1]
  obtain ⟨b, hb⟩ : ∃ b : Fin 32, b.val = t.val / 4 := ⟨⟨t.val / 4, by omega⟩, rfl⟩
  -- the query tile and the weights are the same blocks at the point before
  have hx0 : (iblk m c 0 ⟨t.val - 1, hp⟩ : Vec Ideal S1x1024x160 .f32) = iblk m c 0 t := by
    funext j'
    obtain ⟨u', i', d', rfl⟩ : ∃ (u' : Fin 1) (i' : Fin 1024) (d' : Fin 160), j' = ix3 u' i' d' :=
      ⟨j' 0, j' 1, j' 2, eq_ix3 j'⟩
    obtain ⟨r', hr'⟩ : ∃ r' : Fin 2048, r'.val = 1024 * (t.val / 2 % 2) + i'.val :=
      ⟨⟨1024 * (t.val / 2 % 2) + i'.val, by have := i'.isLt; omega⟩, rfl⟩
    rw [BlockAt.iblk0_apply m c ⟨t.val - 1, hp⟩ u' i' d' b r' (by show b.val = (t.val - 1) / 4; omega)
        (by show r'.val = 1024 * ((t.val - 1) / 2 % 2) + i'.val; omega),
      BlockAt.iblk0_apply m c t u' i' d' b r' hb hr']
  have hx2 : (iblk m c 2 ⟨t.val - 1, hp⟩ : Vec Ideal S160x160 .f32) = iblk m c 2 t := by
    funext j'
    obtain ⟨d', e', rfl⟩ : ∃ (d' e' : Fin 160), j' = ix2 d' e' := ⟨j' 0, j' 1, eq_ix2 j'⟩
    rw [BlockAt.iblk2_apply, BlockAt.iblk2_apply]
  have hx3 : (iblk m c 3 ⟨t.val - 1, hp⟩ : Vec Ideal S160 .f32) = iblk m c 3 t := by
    funext j'
    obtain ⟨e', rfl⟩ : ∃ (e' : Fin 160), j' = ix1 e' := ⟨j' 0, eq_ix1 j'⟩
    rw [BlockAt.iblk3_apply, BlockAt.iblk3_apply]
  have hx4 : (iblk m c 4 ⟨t.val - 1, hp⟩ : Vec Ideal S160x160 .f32) = iblk m c 4 t := by
    funext j'
    obtain ⟨d', e', rfl⟩ : ∃ (d' e' : Fin 160), j' = ix2 d' e' := ⟨j' 0, j' 1, eq_ix2 j'⟩
    rw [BlockAt.iblk4_apply, BlockAt.iblk4_apply]
  have hx5 : (iblk m c 5 ⟨t.val - 1, hp⟩ : Vec Ideal S160 .f32) = iblk m c 5 t := by
    funext j'
    obtain ⟨e', rfl⟩ : ∃ (e' : Fin 160), j' = ix1 e' := ⟨j' 0, eq_ix1 j'⟩
    rw [BlockAt.iblk5_apply, BlockAt.iblk5_apply]
  have hx6 : (iblk m c 6 ⟨t.val - 1, hp⟩ : Vec Ideal S160x160 .f32) = iblk m c 6 t := by
    funext j'
    obtain ⟨d', e', rfl⟩ : ∃ (d' e' : Fin 160), j' = ix2 d' e' := ⟨j' 0, j' 1, eq_ix2 j'⟩
    rw [BlockAt.iblk6_apply, BlockAt.iblk6_apply]
  have hx7 : (iblk m c 7 ⟨t.val - 1, hp⟩ : Vec Ideal S160 .f32) = iblk m c 7 t := by
    funext j'
    obtain ⟨e', rfl⟩ : ∃ (e' : Fin 160), j' = ix1 e' := ⟨j' 0, eq_ix1 j'⟩
    rw [BlockAt.iblk7_apply, BlockAt.iblk7_apply]
  rw [hx0, hx2, hx3, hx4, hx5, hx6, hx7]
  funext j
  obtain ⟨u, i, d, rfl⟩ : ∃ (u : Fin 1) (i : Fin 1024) (d : Fin 160), j = ix3 u i d := ⟨j 0, j 1, j 2, eq_ix3 j⟩
  obtain ⟨r, hr⟩ : ∃ r : Fin 2048, r.val = 1024 * (t.val / 2 % 2) + i.val :=
    ⟨⟨1024 * (t.val / 2 % 2) + i.val, by have := i.isLt; omega⟩, rfl⟩
  show Tile.tileOut (iblk m c 0 t) (iblk m c 1 ⟨t.val - 1, hp⟩) (iblk m c 1 t) (iblk m c 2 t) (iblk m c 3 t) (iblk m c 4 t)
      (iblk m c 5 t) (iblk m c 6 t) (iblk m c 7 t) (ix3 u i d)
    = GG m c (((cfg0.win 8).blk t).view.emb (ix3 u i d : S1x1024x160.Idx))
  rw [BlockAt.emb8 t u i d b r hb hr]
  refine (TileAt.tileOut_apply (iblk m c 0 t) (iblk m c 1 ⟨t.val - 1, hp⟩) (iblk m c 1 t) (iblk m c 2 t) (iblk m c 3 t)
    (iblk m c 4 t) (iblk m c 5 t) (iblk m c 6 t) (iblk m c 7 t) u i d).trans ?_
  have e2 : (fun (e d' : Fin 160) => (iblk m c 2 t : Vec Ideal S160x160 .f32) (ix2 d' e)) = fun e d' => (m ((c : Thread nD τ).loc main_arg2)) (ix2 e d') :=
    funext fun e => funext fun d' => BlockAt.iblk2_apply m c t d' e
  have e3 : (fun (e : Fin 160) => (iblk m c 3 t : Vec Ideal S160 .f32) (ix1 e)) = fun e => (m ((c : Thread nD τ).loc main_arg3)) (ix1 e) :=
    funext fun e => BlockAt.iblk3_apply m c t e
  have e4 : (fun (e d' : Fin 160) => (iblk m c 4 t : Vec Ideal S160x160 .f32) (ix2 d' e)) = fun e d' => (m ((c : Thread nD τ).loc main_arg4)) (ix2 e d') :=
    funext fun e => funext fun d' => BlockAt.iblk4_apply m c t d' e
  have e5 : (fun (e : Fin 160) => (iblk m c 5 t : Vec Ideal S160 .f32) (ix1 e)) = fun e => (m ((c : Thread nD τ).loc main_arg5)) (ix1 e) :=
    funext fun e => BlockAt.iblk5_apply m c t e
  have e6 : (fun (e d' : Fin 160) => (iblk m c 6 t : Vec Ideal S160x160 .f32) (ix2 d' e)) = fun e d' => (m ((c : Thread nD τ).loc main_arg6)) (ix2 e d') :=
    funext fun e => funext fun d' => BlockAt.iblk6_apply m c t d' e
  have e7 : (fun (e : Fin 160) => (iblk m c 7 t : Vec Ideal S160 .f32) (ix1 e)) = fun e => (m ((c : Thread nD τ).loc main_arg7)) (ix1 e) :=
    funext fun e => BlockAt.iblk7_apply m c t e
  have ex : (fun (d' : Fin 160) => (iblk m c 0 t : Vec Ideal S1x1024x160 .f32) (ix3 u i d')) = fun d' => (m ((c : Thread nD τ).loc main_arg0)) (ix3 b r d') :=
    funext fun d' => BlockAt.iblk0_apply m c t u i d' b r hb hr
  have ey0 : (fun (j : Fin 1024) (d' : Fin 160) => (iblk m c 1 ⟨t.val - 1, hp⟩ : Vec Ideal S1x1024x160 .f32) (ix3 u j d'))
      = fun j d' => (m ((c : Thread nD τ).loc main_arg1)) (ix3 b (Cert.Attention.lo j) d') :=
    funext fun j => funext fun d' => BlockAt.iblk1_apply m c ⟨t.val - 1, hp⟩ u j d' b (Cert.Attention.lo j)
      (by show b.val = (t.val - 1) / 4; omega) (by show j.val = 1024 * ((t.val - 1) % 2) + j.val; omega)
  have ey1 : (fun (j : Fin 1024) (d' : Fin 160) => (iblk m c 1 t : Vec Ideal S1x1024x160 .f32) (ix3 u j d'))
      = fun j d' => (m ((c : Thread nD τ).loc main_arg1)) (ix3 b (Cert.Attention.hi j) d') :=
    funext fun j => funext fun d' => BlockAt.iblk1_apply m c t u j d' b (Cert.Attention.hi j) hb
      (by show 1024 + j.val = 1024 * (t.val % 2) + j.val; omega)
  rw [e2, e3, e4, e5, e6, e7, ex, ey0, ey1]
  exact Cert.Attention.online_eq_full (fun e d' => (m ((c : Thread nD τ).loc main_arg2)) (ix2 e d')) (fun e d' => (m ((c : Thread nD τ).loc main_arg4)) (ix2 e d'))
    (fun e d' => (m ((c : Thread nD τ).loc main_arg6)) (ix2 e d')) (fun e => (m ((c : Thread nD τ).loc main_arg3)) (ix1 e)) (fun e => (m ((c : Thread nD τ).loc main_arg5)) (ix1 e)) (fun e => (m ((c : Thread nD τ).loc main_arg7)) (ix1 e))
    (fun d' => (m ((c : Thread nD τ).loc main_arg0)) (ix3 b r d')) (fun j d' => (m ((c : Thread nD τ).loc main_arg1)) (ix3 b j d')) d
    (fun e d' => r2 (ix2 e d')) (fun e d' => r4 (ix2 e d')) (fun e d' => r6 (ix2 e d'))
    (fun e => r3 (ix1 e)) (fun e => r5 (ix1 e)) (fun e => r7 (ix1 e))
    (fun d' => r0 (ix3 b r d')) (fun j d' => r1 (ix3 b j d'))

/-- After the run the output array holds the attention of the argument arrays, when these are real. -/
theorem final (c : Dev nD) (hreal : Cert.Attention.AllReal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    (dats m 0 c).arrAt 8 cfg0.N = GG m c :=
  (dats m 0 c).arrAt_eq_of_cover 8 (GG m c) (flushed_eq m c hreal) Cover.cover8

end Cert.KernelIdeal.Blocks

end
-- ==== Proof.RefAttention.lean ====
/-
  The reference program, stage by stage, is softmax attention with a residual.

  Each row of the query input goes through the query layer, each row of the key/value input through the key layer and
  the value layer (a contraction over the 160 input columns plus a bias). The score of query row `r` against key row
  `j` of the same batch is the inner product of the two projected rows. Along the key axis the scores are reduced to
  their maximum `M` (a fold of `max` from minus infinity, and a further maximum with minus infinity that changes
  nothing), shifted by `M`, exponentiated, summed to `L` (from zero), divided by `L`, and contracted against the value
  rows; the query's own input entry is added at the end. Read at the index `(b, r, d)` this is, term for term,
  `Cert.Attention.full` of row `r` of batch `b` of the query input over the 2048 rows of batch `b` of the key/value
  input at column `d`, which is what `Cert.Attention.G` says at that index.
-/
import proofs.«159856_j83305185673744_2_alg».proof.Proof.Gen.ReferenceIdeal.Read
import proofs.«159856_j83305185673744_2_alg».proof.Proof.Attention
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-- An input of shape [32, 2048, 160]. -/
abbrev A3 : Type := (⟨S32x2048x160, .f32⟩ : BufTy).Contents (Elt Ideal)
/-- A weight of shape [160, 160]. -/
abbrev A2 : Type := (⟨S160x160, .f32⟩ : BufTy).Contents (Elt Ideal)
/-- A bias of shape [160]. -/
abbrev A1 : Type := (⟨S160, .f32⟩ : BufTy).Contents (Elt Ideal)

/-- A weight as a function of its two coordinates `[out, in]`. -/
abbrev W (x : A2) : Fin 160 → Fin 160 → EReal := fun e d => x (ix2 e d)
/-- A bias as a function of its coordinate. -/
abbrev B (x : A1) : Fin 160 → EReal := fun e => x (ix1 e)
/-- Row `r` of batch `b` of an input. -/
abbrev row (x : A3) (b : Fin 32) (r : Fin 2048) : Fin 160 → EReal := fun d => x (ix3 b r d)

/-! ## The index maps of the stages at literal coordinates -/

theorem lidx0 (b : Fin 32) (r : Fin 2048) (e k : Fin 160) : lidx_main_v0 (ix3 b r e) k = ix3 b r k :=
  funext fun a => Fin.ext (by match a with | ⟨0, _⟩ => rfl | ⟨1, _⟩ => rfl | ⟨2, _⟩ => rfl)
theorem ridx0 (b : Fin 32) (r : Fin 2048) (e k : Fin 160) : ridx_main_v0 (ix3 b r e) k = ix2 e k :=
  funext fun a => Fin.ext (by match a with | ⟨0, _⟩ => rfl | ⟨1, _⟩ => rfl)
theorem bidx (b : Fin 32) (r : Fin 2048) (e : Fin 160) : idx_main_v1 (idx_main_v2 (ix3 b r e)) = ix1 e :=
  funext fun a => Fin.ext (by match a with | ⟨0, _⟩ => rfl)

/-! ## The three linear layers -/

/-- The query layer at `(b, r, e)`. -/
theorem q_apply (x0 : A3) (x2 : A2) (x3 : A1) (b : Fin 32) (r : Fin 2048) (e : Fin 160) :
    val_main_v3 (F := Ideal) x0 x2 x3 (ix3 b r e) = Cert.Attention.lin (row x0 b r) (W x2) (B x3) e := by
  rw [val_main_v3_apply, val_main_v0_apply, val_main_v2_apply, val_main_v1_apply, bidx]
  simp only [lidx0, ridx0, Ideal.addf_def]
  rfl

/-- The key layer at `(b, j, e)`. -/
theorem k_apply (x1 : A3) (x4 : A2) (x5 : A1) (b : Fin 32) (j : Fin 2048) (e : Fin 160) :
    val_main_v7 (F := Ideal) x1 x4 x5 (ix3 b j e) = Cert.Attention.lin (row x1 b j) (W x4) (B x5) e := by
  rw [val_main_v7_apply, val_main_v4_apply, val_main_v6_apply, val_main_v5_apply]
  simp only [Ideal.addf_def]
  exact congrArg₂ (· + ·)
    (Finset.sum_congr rfl fun k _ => congrArg₂ (· * ·) (congrArg x1 (lidx0 b j e k)) (congrArg x4 (ridx0 b j e k)))
    (congrArg x5 (bidx b j e))

/-- The value layer at `(b, j, d)`. -/
theorem v_apply (x1 : A3) (x6 : A2) (x7 : A1) (b : Fin 32) (j : Fin 2048) (d : Fin 160) :
    val_main_v11 (F := Ideal) x1 x6 x7 (ix3 b j d) = Cert.Attention.lin (row x1 b j) (W x6) (B x7) d := by
  rw [val_main_v11_apply, val_main_v8_apply, val_main_v10_apply, val_main_v9_apply]
  simp only [Ideal.addf_def]
  exact congrArg₂ (· + ·)
    (Finset.sum_congr rfl fun k _ => congrArg₂ (· * ·) (congrArg x1 (lidx0 b j d k)) (congrArg x6 (ridx0 b j d k)))
    (congrArg x7 (bidx b j d))

/-! ## The scores -/

theorem lidx12 (b : Fin 32) (r j : Fin 2048) (k : Fin 160) : lidx_main_v12 (ix3 b r j) k = ix3 b r k :=
  funext fun a => Fin.ext (by match a with | ⟨0, _⟩ => rfl | ⟨1, _⟩ => rfl | ⟨2, _⟩ => rfl)
theorem ridx12 (b : Fin 32) (r j : Fin 2048) (k : Fin 160) : ridx_main_v12 (ix3 b r j) k = ix3 b j k :=
  funext fun a => Fin.ext (by match a with | ⟨0, _⟩ => rfl | ⟨1, _⟩ => rfl | ⟨2, _⟩ => rfl)

/-- The score of query row `r` against key row `j` of batch `b`. -/
abbrev sc (x0 x1 : A3) (x2 : A2) (x3 : A1) (x4 : A2) (x5 : A1) (b : Fin 32) (r j : Fin 2048) : EReal :=
  Cert.Attention.score (W x2) (W x4) (B x3) (B x5) (row x0 b r) (row x1 b j)

/-- The score stage at `(b, r, j)`. -/
theorem s_apply (x0 x1 : A3) (x2 : A2) (x3 : A1) (x4 : A2) (x5 : A1) (b : Fin 32) (r j : Fin 2048) :
    val_main_v12 (F := Ideal) x0 x1 x2 x3 x4 x5 (ix3 b r j) = sc x0 x1 x2 x3 x4 x5 b r j := by
  rw [val_main_v12_apply]
  unfold sc Cert.Attention.score
  refine Finset.sum_congr rfl fun k _ => ?_
  rw [lidx12, ridx12, q_apply, k_apply]

/-! ## The row maximum -/

/-- Minus infinity, as the float word the program starts its maximum from. -/
theorem negInf_eq_bot : Ideal.ofBits .f32 0xFF800000#32 = (⊥ : EReal) := by
  simp [Ideal.ofBits, Ideal.ieee]

/-- The index over `(b, r)` whose coordinate on the key axis is `k`. -/
theorem lift_ix (h : S32x2048x2048.Reduces [2] S32x2048) (b : Fin 32) (r : Fin 2048)
    (k : Fin (S32x2048x2048.size 2)) : h.lift (ix2 b r) k = ix3 b r (⟨k.val, k.isLt⟩ : Fin 2048) := by
  funext c; apply Fin.ext
  match c with
  | ⟨0, _⟩ => rfl
  | ⟨1, _⟩ => rfl
  | ⟨2, _⟩ => rfl

/-- The maximum-reduction at `(b, r)`: the fold of `max` from minus infinity over the scores of row `r`. -/
theorem m13_apply (x0 x1 : A3) (x2 : A2) (x3 : A1) (x4 : A2) (x5 : A1) (b : Fin 32) (r : Fin 2048) :
    val_main_v13 (F := Ideal) x0 x1 x2 x3 x4 x5 (ix2 b r)
      = Cert.Attention.rowMax fun j' : Fin 2048 => sc x0 x1 x2 x3 x4 x5 b r j' := by
  have h : S32x2048x2048.Reduces [2] S32x2048 := by decide
  unfold val_main_v13
  generalize hy : val_main_v12 (F := Ideal) x0 x1 x2 x3 x4 x5 = y
  refine (Host.reduce_eq_fold_single (α := EReal) (FloatOps.maximumf (F := Ideal) (φ := .f32)) y
    (val_main_cst (F := Ideal)) reducesTo_S32x2048x2048_S32x2048_d2 h h_S_ (ix2 b r)).trans ?_
  have hf : (y ∘ h.lift (ix2 b r)) = fun j' : Fin 2048 => sc x0 x1 x2 x3 x4 x5 b r j' :=
    funext fun k => by
      show y (h.lift (ix2 b r) k) = _
      rw [lift_ix h b r k, ← hy, s_apply]
      rfl
  have hi : val_main_cst (F := Ideal) (Shape.Idx.first h_S_) = (⊥ : EReal) := by
    rw [val_main_cst_apply, Ideal.ofBits_def, negInf_eq_bot]
  unfold Cert.Attention.rowMax
  rw [hi]
  exact congrArg (fun f => Finset.fold max (⊥ : EReal) f (Finset.univ : Finset (Fin 2048))) hf

/-- The row maximum as the program uses it: a further maximum with minus infinity changes nothing. -/
theorem m_apply (x0 x1 : A3) (x2 : A2) (x3 : A1) (x4 : A2) (x5 : A1) (b : Fin 32) (r : Fin 2048) :
    val_main_v15 (F := Ideal) x0 x1 x2 x3 x4 x5 (ix2 b r)
      = Cert.Attention.rowMax fun j' : Fin 2048 => sc x0 x1 x2 x3 x4 x5 b r j' := by
  rw [val_main_v15_apply, val_main_v14_apply, val_main_cst_0_apply, m13_apply, Ideal.ofBits_def, negInf_eq_bot,
    Ideal.maximumf_def]
  exact max_eq_right bot_le

/-! ## The shifted exponentials, their sum, and the weights -/

theorem idx1617 (b : Fin 32) (r j : Fin 2048) : idx_main_v16 (idx_main_v17 (ix3 b r j)) = ix2 b r :=
  funext fun a => Fin.ext (by match a with | ⟨0, _⟩ => rfl | ⟨1, _⟩ => rfl)
theorem idx20 (b : Fin 32) (r k : Fin 2048) : idx_main_v20 (ix2 b r) k = ix3 b r k :=
  funext fun a => Fin.ext (by match a with | ⟨0, _⟩ => rfl | ⟨1, _⟩ => rfl | ⟨2, _⟩ => rfl)
theorem idx2122 (b : Fin 32) (r j : Fin 2048) : idx_main_v21 (idx_main_v22 (ix3 b r j)) = ix2 b r :=
  funext fun a => Fin.ext (by match a with | ⟨0, _⟩ => rfl | ⟨1, _⟩ => rfl)

/-- The exponential of the score shifted by the row maximum, at `(b, r, j)`. -/
abbrev ex (x0 x1 : A3) (x2 : A2) (x3 : A1) (x4 : A2) (x5 : A1) (b : Fin 32) (r j : Fin 2048) : EReal :=
  Ideal.exp (sc x0 x1 x2 x3 x4 x5 b r j - Cert.Attention.rowMax fun j' : Fin 2048 => sc x0 x1 x2 x3 x4 x5 b r j')

/-- The exponential stage at `(b, r, j)`. -/
theorem p_apply (x0 x1 : A3) (x2 : A2) (x3 : A1) (x4 : A2) (x5 : A1) (b : Fin 32) (r j : Fin 2048) :
    val_main_v19 (F := Ideal) x0 x1 x2 x3 x4 x5 (ix3 b r j) = ex x0 x1 x2 x3 x4 x5 b r j := by
  rw [val_main_v19_apply, val_main_v18_apply, val_main_v17_apply, val_main_v16_apply, idx1617, m_apply, s_apply,
    Ideal.hostUnary_exp_def, Ideal.subf_def]

/-- The sum stage at `(b, r)`: from zero, the sum of the exponentials of row `r`. -/
theorem l_apply (x0 x1 : A3) (x2 : A2) (x3 : A1) (x4 : A2) (x5 : A1) (b : Fin 32) (r : Fin 2048) :
    val_main_v20 (F := Ideal) x0 x1 x2 x3 x4 x5 (ix2 b r) = ∑ j'' : Fin 2048, ex x0 x1 x2 x3 x4 x5 b r j'' := by
  rw [val_main_v20_apply, val_main_cst_1_apply, Ideal.ofBits_def, Ideal.ofBits_zero_f32, zero_add]
  exact Finset.sum_congr rfl fun k _ => by rw [idx20, p_apply]

/-- The weight stage at `(b, r, j)`: the exponential over the row's sum. -/
theorem w_apply (x0 x1 : A3) (x2 : A2) (x3 : A1) (x4 : A2) (x5 : A1) (b : Fin 32) (r j : Fin 2048) :
    val_main_v23 (F := Ideal) x0 x1 x2 x3 x4 x5 (ix3 b r j)
      = Ideal.div (ex x0 x1 x2 x3 x4 x5 b r j) (∑ j'' : Fin 2048, ex x0 x1 x2 x3 x4 x5 b r j'') := by
  rw [val_main_v23_apply, val_main_v22_apply, val_main_v21_apply, idx2122, l_apply, p_apply, Ideal.hostDivf_def]

/-! ## The weighted sum of the value rows, and the residual -/

theorem lidx24 (b : Fin 32) (r : Fin 2048) (d : Fin 160) (k : Fin 2048) : lidx_main_v24 (ix3 b r d) k = ix3 b r k :=
  funext fun a => Fin.ext (by match a with | ⟨0, _⟩ => rfl | ⟨1, _⟩ => rfl | ⟨2, _⟩ => rfl)
theorem ridx24 (b : Fin 32) (r : Fin 2048) (d : Fin 160) (k : Fin 2048) : ridx_main_v24 (ix3 b r d) k = ix3 b k d :=
  funext fun a => Fin.ext (by match a with | ⟨0, _⟩ => rfl | ⟨1, _⟩ => rfl | ⟨2, _⟩ => rfl)

/-- The result at `(b, r, d)` is the attention of row `r` of batch `b` over that batch's key rows, at column `d`. -/
theorem out_apply (x0 x1 : A3) (x2 : A2) (x3 : A1) (x4 : A2) (x5 : A1) (x6 : A2) (x7 : A1)
    (b : Fin 32) (r : Fin 2048) (d : Fin 160) :
    val_main_v25 (F := Ideal) x0 x1 x2 x3 x4 x5 x6 x7 (ix3 b r d)
      = Cert.Attention.full (W x2) (W x4) (W x6) (B x3) (B x5) (B x7) (row x0 b r) (fun j => row x1 b j) d := by
  rw [val_main_v25_apply, val_main_v24_apply, Ideal.addf_def]
  unfold Cert.Attention.full
  refine congrArg (· + x0 (ix3 b r d)) (Finset.sum_congr rfl fun k _ => ?_)
  rw [lidx24, ridx24, w_apply, v_apply]

/-! ## The whole array -/

theorem ref_eq_G (x0 x1 : (⟨S32x2048x160, .f32⟩ : BufTy).Contents (Elt Ideal)) (x2 : (⟨S160x160, .f32⟩ : BufTy).Contents (Elt Ideal)) (x3 : (⟨S160, .f32⟩ : BufTy).Contents (Elt Ideal))
    (x4 : (⟨S160x160, .f32⟩ : BufTy).Contents (Elt Ideal)) (x5 : (⟨S160, .f32⟩ : BufTy).Contents (Elt Ideal)) (x6 : (⟨S160x160, .f32⟩ : BufTy).Contents (Elt Ideal)) (x7 : (⟨S160, .f32⟩ : BufTy).Contents (Elt Ideal)) :
    Cert.ReferenceIdeal.Read.val_main_v25 (F := Ideal) x0 x1 x2 x3 x4 x5 x6 x7 = Cert.Attention.G x0 x1 x2 x3 x4 x5 x6 x7 := by
  funext i
  obtain ⟨b, r, d, rfl⟩ : ∃ (b : Fin 32) (r : Fin 2048) (d : Fin 160), i = ix3 b r d := ⟨i 0, i 1, i 2, eq_ix3 i⟩
  rw [out_apply]
  rfl

end Cert.ReferenceIdeal.RefValue

end
-- ==== Proof.Finite.lean ====
/-
  From "every float input is finite" to "every entry of the eight argument arrays is a real number".

  The precondition tests each of the eight arrays entry by entry: `|a i| < +∞`, where the absolute value on the
  extended reals is `max x (-x)` and `+∞` is the word `0x7F800000`, which denotes `⊤`. Each array's tests are
  folded by `and` over all of its axes into a single word, and the eight words are joined by `and`; the
  precondition says that the final word is 1.

  An `and` of words is 1 only when both are, so each of the eight folds is 1; a fold by `and` over all axes that is 1
  met a 1 at every index, so `|a i| < ⊤` holds at every index `i` of every array. Of the three kinds of extended
  real, `⊥` and `⊤` both have absolute value `⊤`, which is not below `⊤`; what is left is a real number.
-/
import proofs.«159856_j83305185673744_2_alg».proof.Pre_finite_inputs
import proofs.«159856_j83305185673744_2_alg».proof.Proof.Gen.Pre_finite_inputs
import proofs.«159856_j83305185673744_2_alg».proof.Proof.Attention
import Idealize.ShloMosaic.Lib.ValueIdx
import Idealize.ShloMosaic.Lib.ReduceAll
import Idealize.ShloMosaic.PureOps.Ideal

namespace Cert.Finite

open Idealize.ShloMosaic Idealize.ShloMosaic.ValueIdx

/-- An extended real whose absolute value `max x (-x)` is strictly below `+∞` (the word `0x7F800000`) is a real
    number: at `⊤` and at `⊥` the absolute value is `⊤` itself. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = (⊤ : EReal) := by simp [Ideal.ofBits, Ideal.ieee]
  change Ideal.cmp .olt (max x (-x)) (Ideal.ofBits .f32 0x7F800000#32) = 1#1 at h
  rw [htop] at h
  induction x using EReal.rec with
  | bot => exact absurd h (by simp [Ideal.cmp])
  | top => exact absurd h (by simp [Ideal.cmp])
  | coe r => exact ⟨r, rfl⟩

/-- The shape with no axes has exactly one index. -/
instance : Subsingleton Cert.Pre_finite_inputs.S_.Idx := ⟨fun a b => funext fun d => d.elim0⟩

/-- A fold by `and`, over all axes of an array `a` of any shape, of the tests `|a i| < +∞` that comes out 1 makes
    every entry of `a` a real number. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf a) (broadcastInDim s ![] hb (constant (F := Ideal) Cert.Pre_finite_inputs.S_ .f32 0x7F800000#32)))
        (constantI Cert.Pre_finite_inputs.S_ 1 1#1) hr hu ix0 = 1#1) (i : s.Idx) : ∃ r : ℝ, a i = (r : EReal) :=
  real_of_abs_lt (a i) (Host.reduce_andi_all _ _ hr hu ix0 e i)

/-- Under the precondition, every entry of each of the eight argument arrays is a real number: the precondition's
    word is the `and` of eight folds, one per array, each of the form `real_of_all` reads. -/
theorem allReal_of_pre (a0 a1 : FVec Ideal Cert.Pre_finite_inputs.S32x2048x160 .f32) (a2 : FVec Ideal Cert.Pre_finite_inputs.S160x160 .f32) (a3 : FVec Ideal Cert.Pre_finite_inputs.S160 .f32)
    (a4 : FVec Ideal Cert.Pre_finite_inputs.S160x160 .f32) (a5 : FVec Ideal Cert.Pre_finite_inputs.S160 .f32) (a6 : FVec Ideal Cert.Pre_finite_inputs.S160x160 .f32) (a7 : FVec Ideal Cert.Pre_finite_inputs.S160 .f32)
    (h : Cert.Pre_finite_inputs.fn (F := Ideal) a0 a1 a2 a3 a4 a5 a6 a7 = fun _ => 1#1) :
    Cert.Attention.AllReal a0 a1 a2 a3 a4 a5 a6 a7 := by
  have h0 := congrFun h ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨e0, e1⟩, e2⟩, e3⟩, e4⟩, e5⟩, e6⟩, e7⟩ := h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7⟩

end Cert.Finite
-- ==== Proof.lean ====
/- The proof of `Cert.Claim`: a fused attention kernel — the three linear layers, the scores, a softmax taken over two
   key tiles by a running maximum, normaliser and accumulator carried across the innermost grid axis, the product
   with the values and the residual, all in one kernel — against the same attention written with a softmax over all
   2048 keys at once, equal as extended reals when every input is finite.

   Both programs end with their result array at ONE function of the argument arrays, `Cert.Attention.G`
   (`Proof/Attention.lean`): the reference because each of its operations read at an index composes to it
   (`Proof/RefAttention.lean`), the kernel because the block each query tile writes back is the body's two steps over
   the batch's two key tiles (`Proof/Pieces.lean`, `Proof/State.lean`), which at an index is the two-tile arrangement
   (`Proof/TileAt.lean`) of rows of the arguments (`Proof/BlockAt.lean`), which is the full softmax
   (`Proof/AttentionLaw.lean`: `exp (a) · exp (b) = exp (a + b)` and `(∑ p v) / L = ∑ (p / L) v` for `L > 0`, laws of
   the reals, so the inputs' finiteness is used: `Proof/Finite.lean`), and those blocks tile the result
   (`Proof/Cover.lean`, `Proof/Blocks.lean`). The frames are the generated ones; the idealization rewrote nothing. -/
import proofs.«159856_j83305185673744_2_alg».proof.Defs
import proofs.«159856_j83305185673744_2_alg».proof.Proof.Gen.Kernel
import proofs.«159856_j83305185673744_2_alg».proof.Proof.Gen.Kernel.Skeleton
import proofs.«159856_j83305185673744_2_alg».proof.Proof.Gen.Kernel.Launch
import proofs.«159856_j83305185673744_2_alg».proof.Proof.Gen.Kernel.Points
import proofs.«159856_j83305185673744_2_alg».proof.Proof.Gen.Kernel.Frame
import proofs.«159856_j83305185673744_2_alg».proof.Proof.Gen.KernelIdeal
import proofs.«159856_j83305185673744_2_alg».proof.Proof.Gen.KernelIdeal.Skeleton
import proofs.«159856_j83305185673744_2_alg».proof.Proof.Gen.KernelIdeal.Launch
import proofs.«159856_j83305185673744_2_alg».proof.Proof.Gen.KernelIdeal.Points
import proofs.«159856_j83305185673744_2_alg».proof.Proof.Gen.KernelIdeal.Frame
import proofs.«159856_j83305185673744_2_alg».proof.Proof.Gen.ReferenceIdeal
import proofs.«159856_j83305185673744_2_alg».proof.Proof.Gen.Pre_finite_inputs
import proofs.«159856_j83305185673744_2_alg».proof.Proof.Gen.KernelIdeal.Value
import proofs.«159856_j83305185673744_2_alg».proof.Proof.Gen.ReferenceIdeal.Run
import proofs.«159856_j83305185673744_2_alg».proof.Proof.Gen.ReferenceIdeal.Read
import proofs.«159856_j83305185673744_2_alg».proof.Proof.Blocks
import proofs.«159856_j83305185673744_2_alg».proof.Proof.RefAttention
import proofs.«159856_j83305185673744_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the attention of the argument arrays: the kernel's by its blocks, under the
    inputs' finiteness; the reference's operation by operation; and the two memories agree on the arguments. -/
theorem algebraic : Cert.algebraic_KernelIdeal_ReferenceIdeal := by
  intro m ρ m' ρ' hpre hagree
  refine ⟨fun c => Cert.KernelIdeal.Blocks.GG m c, ?_, ?_⟩
  · exact (θ_run Cert.KernelIdeal.defs _ _).mono
      (fun r h c => ⟨(h c).1.trans (Cert.KernelIdeal.Blocks.final m c
        (Cert.Finite.allReal_of_pre _ _ _ _ _ _ _ _ (hpre c))), (h c).2⟩)
      (Cert.KernelIdeal.Value.run_blocks (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v25_eq, Cert.ReferenceIdeal.RefValue.ref_eq_G,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
